-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30x2048x512 : Shape := ⟨3, ![30, 2048, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S30x2048x512 : S_.BroadcastsInDim S30x2048x512 (![] : Fin 0 → Fin S30x2048x512.rank)
  reducesTo_S30x2048x512_S_d0_1_2 : S30x2048x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S30x2048x512 .f32) (main_arg1 : FVec F S1536x512 .f32) (main_arg2 : FVec F S1536 .f32) (main_arg3 : FVec F S512x512 .f32) (main_arg4 : FVec F S512 .f32) : IVec S_ 1 :=
  let main_v0 : FVec F S30x2048x512 .f32 := Host.absf main_arg0
  let main_cst : FVec F S_ .f32 := constant S_ .f32 0x7F800000#32
  let main_v1 : FVec F S30x2048x512 .f32 := broadcastInDim S30x2048x512 ![] bcast_S_S30x2048x512 main_cst
  let main_v2 : IVec S30x2048x512 1 := cmpf .olt main_v0 main_v1
  let main_c : IVec S_ 1 := constantI S_ 1 1#1
  let main_v3 : IVec S_ 1 := (fun x v => Host.reduce IntOp.andi x v reducesTo_S30x2048x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S30x2048x512 : Shape := ⟨3, ![30, 2048, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S61440x512 : Shape := ⟨2, ![61440, 512]⟩
abbrev S_ : Shape := ⟨0, ![]⟩
abbrev S1536x1 : Shape := ⟨2, ![1536, 1]⟩
abbrev S512x1536 : Shape := ⟨2, ![512, 1536]⟩
abbrev S1x1536 : Shape := ⟨2, ![1, 1536]⟩
abbrev S1x512 : Shape := ⟨2, ![1, 512]⟩
abbrev S1024x512 : Shape := ⟨2, ![1024, 512]⟩
abbrev S1024x1536 : Shape := ⟨2, ![1024, 1536]⟩
abbrev S1024x64 : Shape := ⟨2, ![1024, 64]⟩
abbrev S1024 : Shape := ⟨1, ![1024]⟩
abbrev S1024x1 : Shape := ⟨2, ![1024, 1]⟩
abbrev S1024x8 : Shape := ⟨2, ![1024, 8]⟩

abbrev nBuf : Space → Nat
  | .hbm => 29
  | .vmem => 8
  | .smem => 0
  | _ => 0

abbrev bufTy : (tb : Table) → Fin (tcTables nBuf tb) → BufTy
  | .hbm, ⟨0, _⟩ => ⟨S30x2048x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S1536, .i32⟩
  | .hbm, ⟨6, _⟩ => ⟨S1536, .i1⟩
  | .hbm, ⟨7, _⟩ => ⟨S1536, .i1⟩
  | .hbm, ⟨8, _⟩ => ⟨S61440x512, .f32⟩
  | .hbm, ⟨9, _⟩ => ⟨S_, .i32⟩
  | .hbm, ⟨10, _⟩ => ⟨S1536, .i32⟩
  | .hbm, ⟨11, _⟩ => ⟨S1536, .i32⟩
  | .hbm, ⟨12, _⟩ => ⟨S1536, .i32⟩
  | .hbm, ⟨13, _⟩ => ⟨S1536x1, .i32⟩
  | .hbm, ⟨14, _⟩ => ⟨S1536x512, .f32⟩
  | .hbm, ⟨15, _⟩ => ⟨S_, .i32⟩
  | .hbm, ⟨16, _⟩ => ⟨S1536, .i32⟩
  | .hbm, ⟨17, _⟩ => ⟨S1536, .i32⟩
  | .hbm, ⟨18, _⟩ => ⟨S1536, .i32⟩
  | .hbm, ⟨19, _⟩ => ⟨S1536x1, .i32⟩
  | .hbm, ⟨20, _⟩ => ⟨S1536, .f32⟩
  | .hbm, ⟨21, _⟩ => ⟨S512x1536, .f32⟩
  | .hbm, ⟨22, _⟩ => ⟨S512x1536, .bf16⟩
  | .hbm, ⟨23, _⟩ => ⟨S512x512, .f32⟩
  | .hbm, ⟨24, _⟩ => ⟨S512x512, .bf16⟩
  | .hbm, ⟨25, _⟩ => ⟨S1x1536, .f32⟩
  | .hbm, ⟨26, _⟩ => ⟨S1x512, .f32⟩
  | .hbm, ⟨27, _⟩ => ⟨S61440x512, .f32⟩
  | .hbm, ⟨28, _⟩ => ⟨S30x2048x512, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S1x1536, .f32⟩
  | .local _ .vmem, ⟨4, _⟩ => ⟨S512x512, .bf16⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S30x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_c_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S30x2048x512_S61440x512 : S30x2048x512.ShapeCasts S61440x512
  bcast_S_S1536 : S_.BroadcastsInDim S1536 (![] : Fin 0 → Fin S1536.rank)
  bcast_S1536_S1536x1_0 : S1536.BroadcastsInDim S1536x1 (![0] : Fin 1 → Fin S1536x1.rank)
  transposes_S1536x512_S512x1536_1_0 : S1536x512.Transposes [1, 0] S512x1536
  bitsLt_bf16_f32 : FTy.bits .bf16 < FTy.bits .f32
  transposes_S512x512_S512x512_1_0 : S512x512.Transposes [1, 0] S512x512
  shapeCasts_S1536_S1x1536 : S1536.ShapeCasts S1x1536
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  slices_S1024x512_o0_0_S1024x64 : S1024x512.Slices ![0, 0] S1024x64
  reduces_S1024x64_S1024 : S1024x64.Reduces [1] S1024
  shapeCasts_S1024_S1024x1 : S1024.ShapeCasts S1024x1
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  concatenates_S1024x1_S1024x1_S1024x1_S1024x1_S1024x1_S1024x1_S1024x1_S1024x1_S1024x8_d1 : Shape.Concatenates [S1024x1, S1024x1, S1024x1, S1024x1, S1024x1, S1024x1, S1024x1, S1024x1] S1024x8 1
  reduces_S1024x8_S1024 : S1024x8.Reduces [1] S1024
  broadcasts_S1024x1_S1024x8 : S1024x1.Broadcasts S1024x8
  slices_S1024x8_o0_0_S1024x1 : S1024x8.Slices ![0, 0] S1024x1
  broadcasts_S1024x1_S1024x64 : S1024x1.Broadcasts S1024x64
  slices_S1024x8_o0_1_S1024x1 : S1024x8.Slices ![0, 1] S1024x1
  slices_S1024x8_o0_2_S1024x1 : S1024x8.Slices ![0, 2] S1024x1
  slices_S1024x8_o0_3_S1024x1 : S1024x8.Slices ![0, 3] S1024x1
  slices_S1024x8_o0_4_S1024x1 : S1024x8.Slices ![0, 4] S1024x1
  slices_S1024x8_o0_5_S1024x1 : S1024x8.Slices ![0, 5] S1024x1
  slices_S1024x8_o0_6_S1024x1 : S1024x8.Slices ![0, 6] S1024x1
  slices_S1024x8_o0_7_S1024x1 : S1024x8.Slices ![0, 7] S1024x1
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S61440x512_S30x2048x512 : S61440x512.ShapeCasts S30x2048x512
  gather_S1536x512_S1536x1_S1536x512_1_0_n_n_0_1_1512_wf : GatherDims.WF S1536x512 S1536x1 S1536x512 [1] [0] [] [0] [] 1 ![1, 512]
  gather_S1536_S1536x1_S1536_n_0_n_n_0_1_1_wf : GatherDims.WF S1536 S1536x1 S1536 [] [0] [] [0] [] 1 ![1]
  dot_S1024x512_S512x1536_S1024x1536_1_0_0_1_n_n_wf : DotDims.WF S1024x512 S512x1536 S1024x1536 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S61440x512.size a
  hwx0_0 : ∀ i : grid0.Coords, EltTy.bits .f32 = 32 ∨ (Rect.block (s := S61440x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S61440x512.size a
  hwx0_5 : ∀ i : grid0.Coords, EltTy.bits .f32 = 32 ∨ (Rect.block (s := S61440x512) S1024x512.size (cc0_transform_5 i) (hinb0_5 i)).WholeWords (EltTy.packing .f32)

variable [Facts₀]

def gather_S1536x512_S1536x1_S1536x512_1_0_n_n_0_1_1512 : GatherDims S1536x512 S1536x1 S1536x512 where
  offsetDims := [1]
  collapsedSliceDims := [0]
  operandBatchingDims := []
  startIndicesBatchingDims := []
  startIndexMap := [0]
  indexVectorDim := 1
  sliceSizes := ![1, 512]
  wf := gather_S1536x512_S1536x1_S1536x512_1_0_n_n_0_1_1512_wf
def gather_S1536_S1536x1_S1536_n_0_n_n_0_1_1 : GatherDims S1536 S1536x1 S1536 where
  offsetDims := []
  collapsedSliceDims := [0]
  operandBatchingDims := []
  startIndicesBatchingDims := []
  startIndexMap := [0]
  indexVectorDim := 1
  sliceSizes := ![1]
  wf := gather_S1536_S1536x1_S1536_n_0_n_n_0_1_1_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S30x2048x512 : Shape := ⟨3, ![30, 2048, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S30x2048x1536 : Shape := ⟨3, ![30, 2048, 1536]⟩
abbrev S1x1x1536 : Shape := ⟨3, ![1, 1, 1536]⟩
abbrev S30x2048x8x192 : Shape := ⟨4, ![30, 2048, 8, 192]⟩
abbrev S30x2048x8x64 : Shape := ⟨4, ![30, 2048, 8, 64]⟩
abbrev S30x2048x8x8 : Shape := ⟨4, ![30, 2048, 8, 8]⟩
abbrev S_ : Shape := ⟨0, ![]⟩
abbrev S30x2048x8 : Shape := ⟨3, ![30, 2048, 8]⟩
abbrev S30x2048x8x1 : Shape := ⟨4, ![30, 2048, 8, 1]⟩
abbrev S1x1x512 : Shape := ⟨3, ![1, 1, 512]⟩

abbrev nBuf : Space → Nat
  | .hbm => 37
  | .vmem => 0
  | .smem => 0
  | _ => 0

abbrev bufTy : (tb : Table) → Fin (tcTables nBuf tb) → BufTy
  | .hbm, ⟨0, _⟩ => ⟨S30x2048x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S30x2048x1536, .f32⟩
  | .hbm, ⟨6, _⟩ => ⟨S1x1x1536, .f32⟩
  | .hbm, ⟨7, _⟩ => ⟨S30x2048x1536, .f32⟩
  | .hbm, ⟨8, _⟩ => ⟨S30x2048x1536, .f32⟩
  | .hbm, ⟨9, _⟩ => ⟨S30x2048x8x192, .f32⟩
  | .hbm, ⟨10, _⟩ => ⟨S30x2048x8x64, .f32⟩
  | .hbm, ⟨11, _⟩ => ⟨S30x2048x8x64, .f32⟩
  | .hbm, ⟨12, _⟩ => ⟨S30x2048x8x64, .f32⟩
  | .hbm, ⟨13, _⟩ => ⟨S30x2048x8x8, .f32⟩
  | .hbm, ⟨14, _⟩ => ⟨S_, .f32⟩
  | .hbm, ⟨15, _⟩ => ⟨S30x2048x8x8, .f32⟩
  | .hbm, ⟨16, _⟩ => ⟨S30x2048x8x8, .f32⟩
  | .hbm, ⟨17, _⟩ => ⟨S_, .f32⟩
  | .hbm, ⟨18, _⟩ => ⟨S30x2048x8, .f32⟩
  | .hbm, ⟨19, _⟩ => ⟨S_, .f32⟩
  | .hbm, ⟨20, _⟩ => ⟨S30x2048x8, .f32⟩
  | .hbm, ⟨21, _⟩ => ⟨S30x2048x8, .f32⟩
  | .hbm, ⟨22, _⟩ => ⟨S30x2048x8x1, .f32⟩
  | .hbm, ⟨23, _⟩ => ⟨S30x2048x8x8, .f32⟩
  | .hbm, ⟨24, _⟩ => ⟨S30x2048x8x8, .f32⟩
  | .hbm, ⟨25, _⟩ => ⟨S30x2048x8x8, .f32⟩
  | .hbm, ⟨26, _⟩ => ⟨S_, .f32⟩
  | .hbm, ⟨27, _⟩ => ⟨S30x2048x8, .f32⟩
  | .hbm, ⟨28, _⟩ => ⟨S30x2048x8x1, .f32⟩
  | .hbm, ⟨29, _⟩ => ⟨S30x2048x8x8, .f32⟩
  | .hbm, ⟨30, _⟩ => ⟨S30x2048x8x8, .f32⟩
  | .hbm, ⟨31, _⟩ => ⟨S30x2048x8x64, .f32⟩
  | .hbm, ⟨32, _⟩ => ⟨S30x2048x512, .f32⟩
  | .hbm, ⟨33, _⟩ => ⟨S30x2048x512, .f32⟩
  | .hbm, ⟨34, _⟩ => ⟨S1x1x512, .f32⟩
  | .hbm, ⟨35, _⟩ => ⟨S30x2048x512, .f32⟩
  | .hbm, ⟨36, _⟩ => ⟨S30x2048x512, .f32⟩
  | _, _ => ⟨S30x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S30x2048x1536_0_1_2 : S1x1x1536.BroadcastsInDim S30x2048x1536 (![0, 1, 2] : Fin 3 → Fin S30x2048x1536.rank)
  shapeCasts_S30x2048x1536_S30x2048x8x192 : S30x2048x1536.ShapeCasts S30x2048x8x192
  slices_S30x2048x8x192_S30x2048x8x64_0_0_0_0 : S30x2048x8x192.Slices ![0, 0, 0, 0] S30x2048x8x64
  slices_S30x2048x8x192_S30x2048x8x64_0_0_0_64 : S30x2048x8x192.Slices ![0, 0, 0, 64] S30x2048x8x64
  slices_S30x2048x8x192_S30x2048x8x64_0_0_0_128 : S30x2048x8x192.Slices ![0, 0, 0, 128] S30x2048x8x64
  bcast_S_S30x2048x8x8 : S_.BroadcastsInDim S30x2048x8x8 (![] : Fin 0 → Fin S30x2048x8x8.rank)
  reducesTo_S30x2048x8x8_S30x2048x8_d3 : S30x2048x8x8.ReducesTo [3] S30x2048x8
  h_S_ : 0 < S_.numel
  bcast_S_S30x2048x8 : S_.BroadcastsInDim S30x2048x8 (![] : Fin 0 → Fin S30x2048x8.rank)
  bcast_S30x2048x8_S30x2048x8x1_0_1_2 : S30x2048x8.BroadcastsInDim S30x2048x8x1 (![0, 1, 2] : Fin 3 → Fin S30x2048x8x1.rank)
  bcast_S30x2048x8x1_S30x2048x8x8_0_1_2_3 : S30x2048x8x1.BroadcastsInDim S30x2048x8x8 (![0, 1, 2, 3] : Fin 4 → Fin S30x2048x8x8.rank)
  shapeCasts_S30x2048x8x64_S30x2048x512 : S30x2048x8x64.ShapeCasts S30x2048x512
  bcast_S512_S1x1x512_2 : S512.BroadcastsInDim S1x1x512 (![2] : Fin 1 → Fin S1x1x512.rank)
  bcast_S1x1x512_S30x2048x512_0_1_2 : S1x1x512.BroadcastsInDim S30x2048x512 (![0, 1, 2] : Fin 3 → Fin S30x2048x512.rank)
  dot_S30x2048x512_S1536x512_S30x2048x1536_2_1_01_0_n_n_wf : DotDims.WF S30x2048x512 S1536x512 S30x2048x1536 [2] [1] [0, 1] [0] [] []
  dot_S30x2048x8x64_S30x2048x8x64_S30x2048x8x8_3_3_2_2_01_01_wf : DotDims.WF S30x2048x8x64 S30x2048x8x64 S30x2048x8x8 [3] [3] [2] [2] [0, 1] [0, 1]
  dot_S30x2048x8x8_S30x2048x8x64_S30x2048x8x64_3_2_2_3_01_01_wf : DotDims.WF S30x2048x8x8 S30x2048x8x64 S30x2048x8x64 [3] [2] [2] [3] [0, 1] [0, 1]
  dot_S30x2048x512_S512x512_S30x2048x512_2_1_01_0_n_n_wf : DotDims.WF S30x2048x512 S512x512 S30x2048x512 [2] [1] [0, 1] [0] [] []

variable [Facts₀]

def dot_S30x2048x512_S1536x512_S30x2048x1536_2_1_01_0_n_n : DotDims S30x2048x512 S1536x512 S30x2048x1536 where
  lhsContracting := [2]
  rhsContracting := [1]
  lhsNonContracting := [0, 1]
  rhsNonContracting := [0]
  lhsBatch := []
  rhsBatch := []
  wf := dot_S30x2048x512_S1536x512_S30x2048x1536_2_1_01_0_n_n_wf
def dot_S30x2048x8x64_S30x2048x8x64_S30x2048x8x8_3_3_2_2_01_01 : DotDims S30x2048x8x64 S30x2048x8x64 S30x2048x8x8 where
  lhsContracting := [3]
  rhsContracting := [3]
  lhsNonContracting := [2]
  rhsNonContracting := [2]
  lhsBatch := [0, 1]
  rhsBatch := [0, 1]
  wf := dot_S30x2048x8x64_S30x2048x8x64_S30x2048x8x8_3_3_2_2_01_01_wf
def dot_S30x2048x8x8_S30x2048x8x64_S30x2048x8x64_3_2_2_3_01_01 : DotDims S30x2048x8x8 S30x2048x8x64 S30x2048x8x64 where
  lhsContracting := [3]
  rhsContracting := [2]
  lhsNonContracting := [2]
  rhsNonContracting := [3]
  lhsBatch := [0, 1]
  rhsBatch := [0, 1]
  wf := dot_S30x2048x8x8_S30x2048x8x64_S30x2048x8x64_3_2_2_3_01_01_wf
def dot_S30x2048x512_S512x512_S30x2048x512_2_1_01_0_n_n : DotDims S30x2048x512 S512x512 S30x2048x512 where
  lhsContracting := [2]
  rhsContracting := [1]
  lhsNonContracting := [0, 1]
  rhsNonContracting := [0]
  lhsBatch := []
  rhsBatch := []
  wf := dot_S30x2048x512_S512x512_S30x2048x512_2_1_01_0_n_n_wf

class Facts : Prop extends Facts₀ where

variable [Facts]
-- ==== Proof.Spec.lean ====
/-
  The function both programs compute, one row of the input at a time, on the extended reals.

  A row `xr` of 512 entries is sent through an affine map to 1536 features, read as eight heads of
  three parts (query, key, value) of 64 entries each: feature `192·h + 64·t + d` is entry `d` of
  part `t` of head `h`.  Inside the row the heads attend to each other: the score of the pair
  (h, g) is the inner product of query `h` with key `g` times 1/8, each row of the 8 × 8 score
  table is normalised by the softmax (the row's maximum subtracted before the exponential), and
  head `h` receives the weighted sum of the eight values.  The 8 × 64 results, laid out head
  after head as 512 entries, go through a second affine map to 512 outputs.
-/
import Idealize.ShloMosaic.PureOps.Ideal
import Idealize.ShloMosaic.Lib.ValueIdx

noncomputable section

namespace Cert.Spec

open Idealize.ShloMosaic Idealize.ShloMosaic.ValueIdx

/-- An affine map applied to one row: output `e` is `∑ k, xr k · W e k + b e` (the weight is read
    by output row, as both programs store it). -/
def lin {n : ℕ} (xr : Fin 512 → EReal) (W : Fin n → Fin 512 → EReal) (b : Fin n → EReal) (e : Fin n) : EReal :=
  (∑ k : Fin 512, xr k * W e k) + b e

/-- The score of the head pair (h, g): the inner product of query `h` and key `g`, times the word of 1/8. -/
def score (q k : Fin 8 → Fin 64 → EReal) (h g : Fin 8) : EReal :=
  (∑ d : Fin 64, q h d * k g d) * Ideal.ofBits .f32 0x3E000000#32

/-- The maximum of eight scores, folded from the word of −∞. -/
def rowMax (s : Fin 8 → EReal) : EReal :=
  (Finset.univ : Finset (Fin 8)).fold max (Ideal.ofBits .f32 0xFF800000#32) s

/-- The softmax of eight scores: `exp (s g − max s)` over the sum of these exponentials. -/
def softmax (s : Fin 8 → EReal) (g : Fin 8) : EReal :=
  Ideal.div (Ideal.exp (s g - rowMax s)) (∑ g' : Fin 8, Ideal.exp (s g' - rowMax s))

/-- What head `h` receives: the values of the eight heads weighted by the softmax of its scores. -/
def heads (q k v : Fin 8 → Fin 64 → EReal) (h : Fin 8) (d : Fin 64) : EReal :=
  ∑ g : Fin 8, softmax (score q k h) g * v g d

/-- Column `c` of the 512 mixed entries is entry `c % 64` of head `c / 64`. -/
def headOf (c : Fin 512) : Fin 8 := ⟨c.val / 64, by have := c.isLt; omega⟩
def dimOf (c : Fin 512) : Fin 64 := ⟨c.val % 64, by omega⟩

/-- The feature carrying entry `d` of part `t` (0 query, 1 key, 2 value) of head `h`. -/
def feat (t : Fin 3) (h : Fin 8) (d : Fin 64) : Fin 1536 :=
  ⟨192 * h.val + 64 * t.val + d.val, by have := t.isLt; have := h.isLt; have := d.isLt; omega⟩

/-- One row through the whole layer, from the 1536 features `p` of the row. -/
def rowOut (p : Fin 1536 → EReal) (Wo : Fin 512 → Fin 512 → EReal) (bo : Fin 512 → EReal) (e : Fin 512) : EReal :=
  lin (fun c => heads (fun h d => p (feat 0 h d)) (fun h d => p (feat 1 h d)) (fun h d => p (feat 2 h d)) (headOf c) (dimOf c))
    Wo bo e

/-- The layer on the whole array: entry (b, l, e) of the result is output `e` of row (b, l). -/
def G (x : (⟨3, ![30, 2048, 512]⟩ : Shape).Idx → EReal) (wq : (⟨2, ![1536, 512]⟩ : Shape).Idx → EReal)
    (bq : (⟨1, ![1536]⟩ : Shape).Idx → EReal) (wo : (⟨2, ![512, 512]⟩ : Shape).Idx → EReal)
    (bo : (⟨1, ![512]⟩ : Shape).Idx → EReal) : (⟨3, ![30, 2048, 512]⟩ : Shape).Idx → EReal := fun i =>
  rowOut (lin (fun k => x (ix3 ⟨(i 0).val, (i 0).isLt⟩ ⟨(i 1).val, (i 1).isLt⟩ k)) (fun e k => wq (ix2 e k)) (fun e => bq (ix1 e)))
    (fun e c => wo (ix2 e c)) (fun e => bo (ix1 e)) ⟨(i 2).val, (i 2).isLt⟩

end Cert.Spec

end
-- ==== Proof.RefIsSpec.lean ====
/-
  The reference program, read one operation at a time at an index, is the specification's function:
  an affine map to 1536 features, eight heads of query / key / value parts, the softmax of the 8 × 8
  score table of each row, the weighted sum of the values, and a second affine map.
-/
import proofs.«121395_j16020228014689_2_alg».proof.Proof.Gen.ReferenceIdeal.Read
import proofs.«121395_j16020228014689_2_alg».proof.Proof.Spec

noncomputable section

namespace Cert.RefIsSpec

open Cert.ReferenceIdeal Cert.ReferenceIdeal.Gen Cert.ReferenceIdeal.Read Idealize.ShloMosaic Idealize.ShloMosaic.ValueIdx
open Cert.Spec

/-! ## The three float words -/

/-- The word of 8 denotes the real 8. -/
theorem ofBits_eight : Ideal.ofBits .f32 0x41000000#32 = ((8 : ℝ) : EReal) := by
  simp [Ideal.ofBits, Ideal.ieee, -EReal.coe_mul]; norm_num

/-- The word of 1/8 denotes the real 1/8. -/
theorem ofBits_eighth : Ideal.ofBits .f32 0x3E000000#32 = (((1 : ℝ) / 8 : ℝ) : EReal) := by
  simp [Ideal.ofBits, Ideal.ieee, -EReal.coe_mul]; norm_num

/-- Dividing by the word of 8 is multiplying by the word of 1/8. -/
theorem div_eight (x : EReal) :
    Ideal.div x (Ideal.ofBits .f32 0x41000000#32) = x * Ideal.ofBits .f32 0x3E000000#32 := by
  rw [ofBits_eight, ofBits_eighth]
  exact Ideal.div_coe (by norm_num) x

/-- The maximum with the word of −∞ is the other operand. -/
theorem max_negInf (y : EReal) : max (Ideal.ofBits .f32 0xFF800000#32) y = y := by
  simp [Ideal.ofBits, Ideal.ieee]

/-! ## The inputs and the features of one row -/

variable (x0 : (⟨S30x2048x512, .f32⟩ : BufTy).Contents (Elt Ideal)) (x1 : (⟨S1536x512, .f32⟩ : BufTy).Contents (Elt Ideal))
  (x2 : (⟨S1536, .f32⟩ : BufTy).Contents (Elt Ideal)) (x3 : (⟨S512x512, .f32⟩ : BufTy).Contents (Elt Ideal))
  (x4 : (⟨S512, .f32⟩ : BufTy).Contents (Elt Ideal))

/-- The 1536 features of row (b, l): the first affine map applied to the row. -/
def feats (b : Fin 30) (l : Fin 2048) : Fin 1536 → EReal :=
  lin (fun k => x0 (ix3 b l k)) (fun e k => x1 (ix2 e k)) (fun e => x2 (ix1 e))

/-- Part t (0 query, 1 key, 2 value) of the eight heads of row (b, l). -/
def part (t : Fin 3) (b : Fin 30) (l : Fin 2048) : Fin 8 → Fin 64 → EReal :=
  fun h d => feats x0 x1 x2 b l (feat t h d)

/-- The affine map with its bias: entry (b, l, f) is feature f of row (b, l). -/
theorem v3_at (b : Fin 30) (l : Fin 2048) (f : Fin 1536) :
    val_main_v3 (F := Ideal) x0 x1 x2 (ix3 b l f) = feats x0 x1 x2 b l f := by
  rw [val_main_v3_apply, val_main_v0_apply, val_main_v2_apply, val_main_v1_apply]
  have e1 : ∀ k : Fin 512, lidx_main_v0 (ix3 b l f) k = ix3 b l k := fun k => funext fun a => by
    match a with | ⟨0, _⟩ => rfl | ⟨1, _⟩ => rfl | ⟨2, _⟩ => rfl
  have e2 : ∀ k : Fin 512, ridx_main_v0 (ix3 b l f) k = ix2 f k := fun k => funext fun a => by
    match a with | ⟨0, _⟩ => rfl | ⟨1, _⟩ => rfl
  have e3 : idx_main_v1 (idx_main_v2 (ix3 b l f)) = ix1 f := funext fun a => by
    match a with | ⟨0, _⟩ => rfl
  simp only [e1, e2, e3]
  rfl

/-- The reshape to heads followed by a slice at offset 64·t reads feature 192·h + 64·t + d. -/
theorem idx4_idx5 (b : Fin 30) (l : Fin 2048) (h : Fin 8) (d : Fin 64) :
    idx_main_v4 (idx_main_v5 (ix4 b l h d)) = ix3 b l (feat 0 h d) := funext fun a => Fin.ext (by
  have hb := b.isLt; have hl := l.isLt; have hh := h.isLt; have hd := d.isLt
  match a with
  | ⟨0, _⟩ => show (((b.val * 2048 + l.val) * 8 + h.val) * 192 + d.val) / 3145728 = b.val; omega
  | ⟨1, _⟩ => show (((b.val * 2048 + l.val) * 8 + h.val) * 192 + d.val) / 1536 % 2048 = l.val; omega
  | ⟨2, _⟩ => show (((b.val * 2048 + l.val) * 8 + h.val) * 192 + d.val) % 1536 = 192 * h.val + 64 * 0 + d.val; omega)

theorem idx4_idx6 (b : Fin 30) (l : Fin 2048) (h : Fin 8) (d : Fin 64) :
    idx_main_v4 (idx_main_v6 (ix4 b l h d)) = ix3 b l (feat 1 h d) := funext fun a => Fin.ext (by
  have hb := b.isLt; have hl := l.isLt; have hh := h.isLt; have hd := d.isLt
  match a with
  | ⟨0, _⟩ => show (((b.val * 2048 + l.val) * 8 + h.val) * 192 + (64 + d.val)) / 3145728 = b.val; omega
  | ⟨1, _⟩ => show (((b.val * 2048 + l.val) * 8 + h.val) * 192 + (64 + d.val)) / 1536 % 2048 = l.val; omega
  | ⟨2, _⟩ => show (((b.val * 2048 + l.val) * 8 + h.val) * 192 + (64 + d.val)) % 1536 = 192 * h.val + 64 * 1 + d.val; omega)

theorem idx4_idx7 (b : Fin 30) (l : Fin 2048) (h : Fin 8) (d : Fin 64) :
    idx_main_v4 (idx_main_v7 (ix4 b l h d)) = ix3 b l (feat 2 h d) := funext fun a => Fin.ext (by
  have hb := b.isLt; have hl := l.isLt; have hh := h.isLt; have hd := d.isLt
  match a with
  | ⟨0, _⟩ => show (((b.val * 2048 + l.val) * 8 + h.val) * 192 + (128 + d.val)) / 3145728 = b.val; omega
  | ⟨1, _⟩ => show (((b.val * 2048 + l.val) * 8 + h.val) * 192 + (128 + d.val)) / 1536 % 2048 = l.val; omega
  | ⟨2, _⟩ => show (((b.val * 2048 + l.val) * 8 + h.val) * 192 + (128 + d.val)) % 1536 = 192 * h.val + 64 * 2 + d.val; omega)

/-- The query slice at (b, l, h, d) is entry d of the query of head h. -/
theorem v5_at (b : Fin 30) (l : Fin 2048) (h : Fin 8) (d : Fin 64) :
    val_main_v5 (F := Ideal) x0 x1 x2 (ix4 b l h d) = part x0 x1 x2 0 b l h d := by
  rw [val_main_v5_apply, val_main_v4_apply, idx4_idx5, v3_at]; rfl

/-- The key slice at (b, l, h, d) is entry d of the key of head h. -/
theorem v6_at (b : Fin 30) (l : Fin 2048) (h : Fin 8) (d : Fin 64) :
    val_main_v6 (F := Ideal) x0 x1 x2 (ix4 b l h d) = part x0 x1 x2 1 b l h d := by
  rw [val_main_v6_apply, val_main_v4_apply, idx4_idx6, v3_at]; rfl

/-- The value slice at (b, l, h, d) is entry d of the value of head h. -/
theorem v7_at (b : Fin 30) (l : Fin 2048) (h : Fin 8) (d : Fin 64) :
    val_main_v7 (F := Ideal) x0 x1 x2 (ix4 b l h d) = part x0 x1 x2 2 b l h d := by
  rw [val_main_v7_apply, val_main_v4_apply, idx4_idx7, v3_at]; rfl

/-! ## The scores -/

/-- The score table of row (b, l). -/
def scores (b : Fin 30) (l : Fin 2048) (h g : Fin 8) : EReal :=
  score (part x0 x1 x2 0 b l) (part x0 x1 x2 1 b l) h g

/-- The batched product of queries and keys, divided by 8, at (b, l, h, g) is the score of the pair (h, g). -/
theorem v10_at (b : Fin 30) (l : Fin 2048) (h g : Fin 8) :
    val_main_v10 (F := Ideal) x0 x1 x2 (ix4 b l h g) = scores x0 x1 x2 b l h g := by
  rw [val_main_v10_apply, val_main_v8_apply, val_main_v9_apply, val_main_cst_apply]
  have e1 : ∀ k : Fin 64, lidx_main_v8 (ix4 b l h g) k = ix4 b l h k := fun k => funext fun a => by
    match a with | ⟨0, _⟩ => rfl | ⟨1, _⟩ => rfl | ⟨2, _⟩ => rfl | ⟨3, _⟩ => rfl
  have e2 : ∀ k : Fin 64, ridx_main_v8 (ix4 b l h g) k = ix4 b l g k := fun k => funext fun a => by
    match a with | ⟨0, _⟩ => rfl | ⟨1, _⟩ => rfl | ⟨2, _⟩ => rfl | ⟨3, _⟩ => rfl
  simp only [e1, e2, v5_at, v6_at]
  exact div_eight _

/-! ## The row maximum -/

/-- The reduced index (b, l, h) with the coordinate k put back on the last axis is (b, l, h, k). -/
theorem lift_ix3 (hr : S30x2048x8x8.Reduces [3] S30x2048x8) (b : Fin 30) (l : Fin 2048) (h : Fin 8)
    (k : Fin (S30x2048x8x8.size 3)) : hr.lift (ix3 b l h) k = ix4 b l h (⟨k.val, k.isLt⟩ : Fin 8) := by
  funext c; apply Fin.ext
  match c with
  | ⟨0, _⟩ => rfl
  | ⟨1, _⟩ => rfl
  | ⟨2, _⟩ => rfl
  | ⟨3, _⟩ => rfl

/-- The maximum-reduce over the last axis, then the maximum with −∞: the row maximum of the scores of head h. -/
theorem v13_at (b : Fin 30) (l : Fin 2048) (h : Fin 8) :
    val_main_v13 (F := Ideal) x0 x1 x2 (ix3 b l h) = rowMax (scores x0 x1 x2 b l h) := by
  rw [val_main_v13_apply, val_main_v12_apply, val_main_cst_1_apply]
  show max (Ideal.ofBits .f32 0xFF800000#32) (val_main_v11 (F := Ideal) x0 x1 x2 (ix3 b l h)) = _
  rw [max_negInf]
  unfold val_main_v11
  have hr : S30x2048x8x8.Reduces [3] S30x2048x8 := by decide
  rw [Host.reduce_eq_fold_single FloatOps.maximumf _ _ reducesTo_S30x2048x8x8_S30x2048x8_d3 hr h_S_]
  have hf : (val_main_v10 (F := Ideal) x0 x1 x2 ∘ hr.lift (ix3 b l h)) = fun k : Fin 8 => scores x0 x1 x2 b l h k :=
    funext fun k => (congrArg (val_main_v10 (F := Ideal) x0 x1 x2) (lift_ix3 hr b l h k)).trans (v10_at x0 x1 x2 b l h _)
  exact congrArg (fun f => Finset.fold max (Ideal.ofBits .f32 0xFF800000#32) f (Finset.univ : Finset (Fin 8))) hf

/-! ## The softmax -/

/-- The exponential of a score minus its row's maximum. -/
theorem v17_at (b : Fin 30) (l : Fin 2048) (h g : Fin 8) :
    val_main_v17 (F := Ideal) x0 x1 x2 (ix4 b l h g)
      = Ideal.exp (scores x0 x1 x2 b l h g - rowMax (scores x0 x1 x2 b l h)) := by
  rw [val_main_v17_apply, val_main_v16_apply, val_main_v15_apply, val_main_v14_apply, v10_at]
  have e : idx_main_v14 (idx_main_v15 (ix4 b l h g)) = ix3 b l h := funext fun a => by
    match a with | ⟨0, _⟩ => rfl | ⟨1, _⟩ => rfl | ⟨2, _⟩ => rfl
  rw [e, v13_at]
  rfl

/-- The sum of the eight exponentials of row h, from the word of zero. -/
theorem v18_at (b : Fin 30) (l : Fin 2048) (h : Fin 8) :
    val_main_v18 (F := Ideal) x0 x1 x2 (ix3 b l h)
      = ∑ g : Fin 8, Ideal.exp (scores x0 x1 x2 b l h g - rowMax (scores x0 x1 x2 b l h)) := by
  rw [val_main_v18_apply, val_main_cst_2_apply]
  have e : ∀ k : Fin 8, idx_main_v18 (ix3 b l h) k = ix4 b l h k := fun k => funext fun a => by
    match a with | ⟨0, _⟩ => rfl | ⟨1, _⟩ => rfl | ⟨2, _⟩ => rfl | ⟨3, _⟩ => rfl
  simp only [e, v17_at]
  show Ideal.ofBits .f32 0x00000000#32 + _ = _
  rw [Ideal.ofBits_zero_f32, zero_add]

/-- The quotient of the exponential by the row's sum: the softmax of the scores of head h, at g. -/
theorem v21_at (b : Fin 30) (l : Fin 2048) (h g : Fin 8) :
    val_main_v21 (F := Ideal) x0 x1 x2 (ix4 b l h g) = softmax (scores x0 x1 x2 b l h) g := by
  rw [val_main_v21_apply, val_main_v20_apply, val_main_v19_apply, v17_at]
  have e : idx_main_v19 (idx_main_v20 (ix4 b l h g)) = ix3 b l h := funext fun a => by
    match a with | ⟨0, _⟩ => rfl | ⟨1, _⟩ => rfl | ⟨2, _⟩ => rfl
  rw [e, v18_at]
  rfl

/-! ## The weighted values, laid out head after head -/

/-- The batched product of the softmax table with the values: what head h receives, entry d. -/
theorem v22_at (b : Fin 30) (l : Fin 2048) (h : Fin 8) (d : Fin 64) :
    val_main_v22 (F := Ideal) x0 x1 x2 (ix4 b l h d)
      = heads (part x0 x1 x2 0 b l) (part x0 x1 x2 1 b l) (part x0 x1 x2 2 b l) h d := by
  rw [val_main_v22_apply]
  have e1 : ∀ k : Fin 8, lidx_main_v22 (ix4 b l h d) k = ix4 b l h k := fun k => funext fun a => by
    match a with | ⟨0, _⟩ => rfl | ⟨1, _⟩ => rfl | ⟨2, _⟩ => rfl | ⟨3, _⟩ => rfl
  have e2 : ∀ k : Fin 8, ridx_main_v22 (ix4 b l h d) k = ix4 b l k d := fun k => funext fun a => by
    match a with | ⟨0, _⟩ => rfl | ⟨1, _⟩ => rfl | ⟨2, _⟩ => rfl | ⟨3, _⟩ => rfl
  simp only [e1, e2, v21_at, v7_at]
  rfl

/-- The reshape back to 512 columns reads column c at head c / 64, entry c % 64. -/
theorem idx23 (b : Fin 30) (l : Fin 2048) (c : Fin 512) :
    idx_main_v23 (ix3 b l c) = ix4 b l (headOf c) (dimOf c) := funext fun a => Fin.ext (by
  have hb := b.isLt; have hl := l.isLt; have hc := c.isLt
  match a with
  | ⟨0, _⟩ => show ((b.val * 2048 + l.val) * 512 + c.val) / 1048576 = b.val; omega
  | ⟨1, _⟩ => show ((b.val * 2048 + l.val) * 512 + c.val) / 512 % 2048 = l.val; omega
  | ⟨2, _⟩ => show ((b.val * 2048 + l.val) * 512 + c.val) / 64 % 8 = c.val / 64; omega
  | ⟨3, _⟩ => show ((b.val * 2048 + l.val) * 512 + c.val) % 64 = c.val % 64; omega)

/-- Column c of the mixed row (b, l). -/
theorem v23_at (b : Fin 30) (l : Fin 2048) (c : Fin 512) :
    val_main_v23 (F := Ideal) x0 x1 x2 (ix3 b l c)
      = heads (part x0 x1 x2 0 b l) (part x0 x1 x2 1 b l) (part x0 x1 x2 2 b l) (headOf c) (dimOf c) := by
  rw [val_main_v23_apply, idx23, v22_at]

/-! ## The second affine map, and the whole -/

/-- The output at (b, l, e) is output e of row (b, l). -/
theorem v27_at (b : Fin 30) (l : Fin 2048) (e : Fin 512) :
    val_main_v27 (F := Ideal) x0 x1 x2 x3 x4 (ix3 b l e)
      = rowOut (feats x0 x1 x2 b l) (fun e c => x3 (ix2 e c)) (fun e => x4 (ix1 e)) e := by
  rw [val_main_v27_apply, val_main_v24_apply, val_main_v26_apply, val_main_v25_apply]
  have e1 : ∀ k : Fin 512, lidx_main_v24 (ix3 b l e) k = ix3 b l k := fun k => funext fun a => by
    match a with | ⟨0, _⟩ => rfl | ⟨1, _⟩ => rfl | ⟨2, _⟩ => rfl
  have e2 : ∀ k : Fin 512, ridx_main_v24 (ix3 b l e) k = ix2 e k := fun k => funext fun a => by
    match a with | ⟨0, _⟩ => rfl | ⟨1, _⟩ => rfl
  have e3 : idx_main_v25 (idx_main_v26 (ix3 b l e)) = ix1 e := funext fun a => by
    match a with | ⟨0, _⟩ => rfl
  simp only [e1, e2, e3, v23_at]
  rfl

/-- The reference's result is the specification's function of the five inputs. -/
theorem ref_eq :
    Cert.ReferenceIdeal.Read.val_main_v27 (F := Ideal) x0 x1 x2 x3 x4 = Cert.Spec.G x0 x1 x2 x3 x4 := by
  funext i
  refine (congrArg (val_main_v27 (F := Ideal) x0 x1 x2 x3 x4) (eq_ix3 i)).trans ?_
  exact v27_at x0 x1 x2 x3 x4 (i 0) (i 1) (i 2)

end Cert.RefIsSpec

end
-- ==== Proof.Body.lean ====
/-
  The kernel's body on one tile of 1024 rows, written as a composition of a few whole-tile functions.

  The tile's rows are projected to 1536 features laid out as three blocks of 512 columns: queries
  `Q`, keys `K`, values `V`, each holding head `h` in columns `64·h … 64·h + 63`.  For head `h`
  the eight score columns (the row-wise inner product of the head's query block with each key block,
  times 1/8) are laid side by side into a 1024 × 8 table, the table is normalised row by row by the
  softmax, and the head's result is the sum over `g` of column `g` of the table, stretched over 64
  lanes, times value block `g`, accumulated from zero in the order g = 0, …, 7.  The eight results
  side by side form a 1024 × 512 tile which is multiplied by the output weight and shifted by the
  output bias.
-/
import proofs.«121395_j16020228014689_2_alg».proof.Proof.Gen.KernelIdeal.Skeleton

noncomputable section

namespace Cert.KernelIdeal.Body

open Idealize.ShloMosaic Idealize.SL.Sem Cert.KernelIdeal Cert.KernelIdeal.Gen

variable {F : FTy → Type} [FloatOps F]

/-- Columns `64·h … 64·h + 63` of a 512-column tile fit inside it. -/
theorem blk_slices (h : Fin 8) : S1024x512.Slices ![0, 64 * h.val] S1024x64 :=
  ⟨rfl, fun a => by
    have := h.isLt
    match a with
    | ⟨0, _⟩ => show 0 + 1024 ≤ 1024; omega
    | ⟨1, _⟩ => show 64 * h.val + 64 ≤ 512; omega⟩

/-- Head `h`'s block of 64 columns of a 512-column tile. -/
def blk (h : Fin 8) (A : FVec F S1024x512 .f32) : FVec F S1024x64 .f32 :=
  extractStridedSlice S1024x64 ![0, 64 * h.val] A (blk_slices h)

theorem col_slices (g : Fin 8) : S1024x8.Slices ![0, g.val] S1024x1 :=
  ⟨rfl, fun a => by
    have := g.isLt
    match a with
    | ⟨0, _⟩ => show 0 + 1024 ≤ 1024; omega
    | ⟨1, _⟩ => show g.val + 1 ≤ 8; omega⟩

/-- Column `g` of a 1024 × 8 table. -/
def col (g : Fin 8) (P : FVec F S1024x8 .f32) : FVec F S1024x1 .f32 :=
  extractStridedSlice S1024x1 ![0, g.val] P (col_slices g)

/-- Row-wise inner product of two 64-column blocks, times the word of 1/8, as a column. -/
def scoreCol (q k : FVec F S1024x64 .f32) : FVec F S1024x1 .f32 :=
  mulf (shapeCast S1024x1 (multiReduction .add [1] S1024 (mulf q k) 0x00000000#32 reduces_S1024x64_S1024 (.inl rfl) rfl) shapeCasts_S1024_S1024x1)
    (broadcast S1024x1 (Scalar.ofBits .f32 0x3E000000#32))

/-- The eight score columns of a query block against the eight key blocks, side by side. -/
def scoreTab (q : FVec F S1024x64 .f32) (K : FVec F S1024x512 .f32) : FVec F S1024x8 .f32 :=
  concatenate S1024x8 1 (List.ofFn fun g : Fin 8 => (⟨S1024x1, scoreCol q (blk g K)⟩ : (s : Shape) × (s.Idx → F .f32)))
    concatenates_S1024x1_S1024x1_S1024x1_S1024x1_S1024x1_S1024x1_S1024x1_S1024x1_S1024x8_d1

/-- The row maximum of a 1024 × 8 table, stretched back over the eight columns. -/
def maxTab (S : FVec F S1024x8 .f32) : FVec F S1024x8 .f32 :=
  broadcastTo S1024x8 (shapeCast S1024x1 (multiReduction .maximumf [1] S1024 S 0xFF800000#32 reduces_S1024x8_S1024 (.inl rfl) rfl) shapeCasts_S1024_S1024x1) broadcasts_S1024x1_S1024x8

/-- The exponentials of a table less its row maxima. -/
def expTab (S : FVec F S1024x8 .f32) : FVec F S1024x8 .f32 := exp (subf S (maxTab S))

/-- The softmax of each row of a 1024 × 8 table. -/
def softmaxTab (S : FVec F S1024x8 .f32) : FVec F S1024x8 .f32 :=
  divf (expTab S) (broadcastTo S1024x8 (shapeCast S1024x1 (multiReduction .add [1] S1024 (expTab S) 0x00000000#32 reduces_S1024x8_S1024 (.inl rfl) rfl) shapeCasts_S1024_S1024x1) broadcasts_S1024x1_S1024x8)

/-- Column `g` of the weights stretched over 64 lanes, times value block `g`. -/
def term (P : FVec F S1024x8 .f32) (V : FVec F S1024x512 .f32) (g : Fin 8) : FVec F S1024x64 .f32 :=
  mulf (broadcastTo S1024x64 (col g P) broadcasts_S1024x1_S1024x64) (blk g V)

/-- The weighted sum of the eight value blocks, accumulated from zero in the order 0, …, 7. -/
def mixVec (P : FVec F S1024x8 .f32) (V : FVec F S1024x512 .f32) : FVec F S1024x64 .f32 :=
  addf (addf (addf (addf (addf (addf (addf (addf (broadcast S1024x64 (Scalar.ofBits .f32 0x00000000#32)) (term P V 0)) (term P V 1)) (term P V 2)) (term P V 3)) (term P V 4)) (term P V 5)) (term P V 6)) (term P V 7)

/-- What head `h` receives, on the whole tile. -/
def headVec (h : Fin 8) (Q K V : FVec F S1024x512 .f32) : FVec F S1024x64 .f32 :=
  mixVec (softmaxTab (scoreTab (blk h Q) K)) V

/-- Eight 64-column blocks side by side. -/
def joinHeads (H : Fin 8 → FVec F S1024x64 .f32) : FVec F S1024x512 .f32 :=
  concatenate S1024x512 1 (List.ofFn fun h : Fin 8 => (⟨S1024x64, H h⟩ : (s : Shape) × (s.Idx → F .f32)))
    concatenates_S1024x64_S1024x64_S1024x64_S1024x64_S1024x64_S1024x64_S1024x64_S1024x64_S1024x512_d1

/-- The output projection of a 1024 × 512 tile: times the weight, plus the bias row. -/
def outVec (val : FVec F S1024x512 .f32) (x3 : Vec F S512x512 .bf16) (x4 : Vec F S1x512 .f32) : FVec F S1024x512 .f32 :=
  addf (matmul dot_S1024x512_S512x512_S1024x512_1_0_0_1_n_n none (truncf .bf16 val bitsLt_bf16_f32) (shapeCast S512x512 x3 shapeCasts_S512x512_S512x512) (constant S1024x512 .f32 0x00000000#32))
    (broadcastTo S1024x512 (shapeCast S1x512 x4 shapeCasts_S1x512_S1x512) broadcasts_S1x512_S1024x512)

/-- The body's one stored value, from the five input tiles. -/
def tileOut (x0 : Vec F S1024x512 .f32) (x1 : Vec F S512x1536 .bf16) (x2 : Vec F S1x1536 .f32) (x3 : Vec F S512x512 .bf16) (x4 : Vec F S1x512 .f32) : FVec F S1024x512 .f32 :=
  outVec (joinHeads fun h => headVec h (k0_pay3 x0 x1 x2) (k0_pay4 x0 x1 x2) (k0_pay5 x0 x1 x2)) x3 x4

end Cert.KernelIdeal.Body

end
-- ==== Proof.Norm.lean ====
/-
  The body's stored value is the composition `tileOut` of whole-tile functions.

  The printed body names every intermediate vector; the value it stores is a nest of those names.  Each
  head's part of the nest unfolds, name by name, to the per-head function `headVec`, and the last
  stretch of the body — the eighth head, the eight results laid side by side, the output projection —
  to `outVec` of `joinHeads`.  Nothing is computed here: the two sides are the same sequence of vector
  operations.
-/
import proofs.«121395_j16020228014689_2_alg».proof.Proof.Gen.KernelIdeal.Skeleton
import proofs.«121395_j16020228014689_2_alg».proof.Proof.Body
import proofs.«121395_j16020228014689_2_alg».proof.Proof.Gen.KernelIdeal.Frame

noncomputable section

namespace Cert.KernelIdeal.Norm

open Idealize.ShloMosaic Idealize.SL.Sem Cert.KernelIdeal Cert.KernelIdeal.Gen Cert.KernelIdeal.Body

variable {F : FTy → Type} [FloatOps F]

/-- Head 0: its query block is cut from the projection directly. -/
theorem head0 (v0 : Vec F S1024x512 .f32) (v3 : Vec F S512x1536 .bf16) (v6 : Vec F S1x1536 .f32) :
    k0_pay14 (k0_pay5 v0 v3 v6) (k0_pay12 (k0_pay4 v0 v3 v6) (k0_pay6 v0 v3 v6) (k0_pay7 v0 v3 v6) (k0_pay8 v0 v3 v6) (k0_pay9 v0 v3 v6) (k0_pay10 v0 v3 v6) (k0_pay11 v0 v3 v6) (Scalar.ofBits .f32 0x3E000000#32)) (k0_pay13 (k0_pay4 v0 v3 v6) (k0_pay5 v0 v3 v6) (k0_pay6 v0 v3 v6) (k0_pay7 v0 v3 v6) (k0_pay8 v0 v3 v6) (k0_pay9 v0 v3 v6) (k0_pay10 v0 v3 v6) (k0_pay11 v0 v3 v6) (Scalar.ofBits .f32 0x3E000000#32))
      = headVec 0 (k0_pay3 v0 v3 v6) (k0_pay4 v0 v3 v6) (k0_pay5 v0 v3 v6) := rfl

/-- Head 1, over any query, key and value tiles. -/
theorem head1 (Q K V : FVec F S1024x512 .f32) :
    k0_pay25 V (k0_pay22 K (k0_pay15 Q) (k0_pay16 Q K) (k0_pay17 Q K) (k0_pay18 Q K) (k0_pay19 Q K) (k0_pay20 Q K) (k0_pay21 (F := F))) (k0_pay23 K V (k0_pay15 Q) (k0_pay16 Q K) (k0_pay17 Q K) (k0_pay18 Q K) (k0_pay19 Q K) (k0_pay20 Q K) (k0_pay21 (F := F))) (k0_pay24 V)
      = headVec 1 Q K V := rfl

/-- Head 2, over any query, key and value tiles. -/
theorem head2 (Q K V : FVec F S1024x512 .f32) :
    k0_pay36 V (k0_pay32 K (k0_pay26 Q) (k0_pay27 Q K) (k0_pay28 Q K) (k0_pay29 Q K) (k0_pay30 Q K) (k0_pay31 Q K)) (k0_pay33 K V (k0_pay26 Q) (k0_pay27 Q K) (k0_pay28 Q K) (k0_pay29 Q K) (k0_pay30 Q K) (k0_pay31 Q K)) (k0_pay34 V) (k0_pay35 K (k0_pay26 Q) (k0_pay27 Q K) (k0_pay28 Q K) (k0_pay29 Q K) (k0_pay30 Q K) (k0_pay31 Q K))
      = headVec 2 Q K V := rfl

/-- Head 3, over any query, key and value tiles. -/
theorem head3 (Q K V : FVec F S1024x512 .f32) :
    k0_pay48 V (k0_pay44 K (k0_pay37 Q) (k0_pay38 Q K) (k0_pay39 Q K) (k0_pay40 Q K) (k0_pay41 Q K) (k0_pay42 Q K) (k0_pay43 K)) (k0_pay45 K V (k0_pay37 Q) (k0_pay38 Q K) (k0_pay39 Q K) (k0_pay40 Q K) (k0_pay41 Q K) (k0_pay42 Q K) (k0_pay43 K)) (k0_pay46 V) (k0_pay47 K (k0_pay37 Q) (k0_pay38 Q K) (k0_pay39 Q K) (k0_pay40 Q K) (k0_pay41 Q K) (k0_pay42 Q K) (k0_pay43 K))
      = headVec 3 Q K V := rfl

/-- Head 4, over any query, key and value tiles. -/
theorem head4 (Q K V : FVec F S1024x512 .f32) :
    k0_pay59 V (k0_pay56 K (k0_pay49 Q) (k0_pay50 Q K) (k0_pay51 Q K) (k0_pay52 Q K) (k0_pay53 Q K) (k0_pay54 Q K) (k0_pay55 Q K)) (k0_pay57 K V (k0_pay49 Q) (k0_pay50 Q K) (k0_pay51 Q K) (k0_pay52 Q K) (k0_pay53 Q K) (k0_pay54 Q K) (k0_pay55 Q K)) (k0_pay58 K V (k0_pay49 Q) (k0_pay50 Q K) (k0_pay51 Q K) (k0_pay52 Q K) (k0_pay53 Q K) (k0_pay54 Q K) (k0_pay55 Q K))
      = headVec 4 Q K V := rfl

/-- Head 5, over any query, key and value tiles. -/
theorem head5 (Q K V : FVec F S1024x512 .f32) :
    k0_pay69 V (k0_pay67 K (k0_pay60 Q) (k0_pay61 Q K) (k0_pay62 Q K) (k0_pay63 Q K) (k0_pay64 Q K) (k0_pay65 Q K) (k0_pay66 Q K)) (k0_pay68 K V (k0_pay60 Q) (k0_pay61 Q K) (k0_pay62 Q K) (k0_pay63 Q K) (k0_pay64 Q K) (k0_pay65 Q K) (k0_pay66 Q K))
      = headVec 5 Q K V := rfl

/-- Head 6, over any query, key and value tiles. -/
theorem head6 (Q K V : FVec F S1024x512 .f32) :
    k0_pay80 V (k0_pay77 K (k0_pay70 Q) (k0_pay71 Q K) (k0_pay72 Q K) (k0_pay73 Q K) (k0_pay74 Q K) (k0_pay75 Q K) (k0_pay76 Q K)) (k0_pay78 K V (k0_pay70 Q) (k0_pay71 Q K) (k0_pay72 Q K) (k0_pay73 Q K) (k0_pay74 Q K) (k0_pay75 Q K) (k0_pay76 Q K)) (k0_pay79 V)
      = headVec 6 Q K V := rfl

/-- The last stretch: head 7 finished, the eight heads joined, the output projection applied. -/
theorem tail7 (Q K V : FVec F S1024x512 .f32) (H0 H1 H2 H3 H4 H5 H6 : FVec F S1024x64 .f32) (x3 : Vec F S512x512 .bf16) (x4 : Vec F S1x512 .f32) :
    k0_pay1 V H0 H1 H2 H3 H4 H5 H6 (k0_pay88 K (k0_pay81 Q) (k0_pay82 Q K) (k0_pay83 Q K) (k0_pay84 Q K) (k0_pay85 Q K) (k0_pay86 Q K) (k0_pay87 Q K)) (k0_pay89 K V (k0_pay81 Q) (k0_pay82 Q K) (k0_pay83 Q K) (k0_pay84 Q K) (k0_pay85 Q K) (k0_pay86 Q K) (k0_pay87 Q K)) (k0_pay90 V) (k0_pay91 K (k0_pay81 Q) (k0_pay82 Q K) (k0_pay83 Q K) (k0_pay84 Q K) (k0_pay85 Q K) (k0_pay86 Q K) (k0_pay87 Q K)) x3 x4
      = outVec (joinHeads ![H0, H1, H2, H3, H4, H5, H6, headVec 7 Q K V]) x3 x4 := rfl

/-- The stored value is `tileOut` of the five tiles. -/
theorem out_eq (x0 : Vec F S1024x512 .f32) (x1 : Vec F S512x1536 .bf16) (x2 : Vec F S1x1536 .f32) (x3 : Vec F S512x512 .bf16) (x4 : Vec F S1x512 .f32) :
    out0_5 x0 x1 x2 x3 x4 = View.canon [⟨r0_0, tileOut (View.ld x0 r0_0) (View.ld x1 r0_1) (View.ld x2 r0_2) (View.ld x3 r0_3) (View.ld x4 r0_4)⟩] := by
  unfold out0_5 tileOut
  rw [head0, head1, head2, head3, head4, head5, head6, tail7]
  refine congrArg (fun p => View.canon [(⟨r0_0, outVec (joinHeads p) (View.ld x3 r0_3) (View.ld x4 r0_4)⟩ : View.Piece (Elt F) S1024x512 .f32)]) (funext fun h => ?_)
  match h with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

end Cert.KernelIdeal.Norm

end
-- ==== Proof.LibPlainDot.lean ====
/-
  Plain matrix-product dimension numbers, read at their indices.

  Dimension numbers of a product of an [M, K] array and a [K, N] array are PLAIN when they contract the left
  operand's axis 1 against the right operand's axis 0, keep the left operand's axis 0 and the right operand's axis 1 as
  the result's two axes in that order, and have no batch axis. For such numbers the contraction shape has the one axis
  of extent K, and at a result index (p, c) and a contraction position a the left operand is read at (p, a) and the
  right operand at (a, c). These are the six facts a product needs to be read as the sum over a of l(p, a) · r(a, c).
-/
import Idealize.ShloMosaic.PureOps.Ideal.Laws
import Idealize.ShloMosaic.Lib.ValueIdx

noncomputable section

namespace Cert.LibPlainDot

open Idealize.ShloMosaic

variable {M K N : Nat} (d : DotDims ⟨2, ![M, K]⟩ ⟨2, ![K, N]⟩ ⟨2, ![M, N]⟩)

/-- The six lists of plain dimension numbers. -/
structure Plain : Prop where
  lc : d.lhsContracting = [1]
  rc : d.rhsContracting = [0]
  ln : d.lhsNonContracting = [0]
  rn : d.rhsNonContracting = [1]
  lb : d.lhsBatch = []
  rb : d.rhsBatch = []

variable {d}

/-- One contracted axis. -/
theorem Plain.rank (h : Plain d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem Plain.lhs0 (h : Plain d) (i : (⟨2, ![M, N]⟩ : Shape).Idx) (q : d.contr.Idx) : (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem Plain.lhs1 (h : Plain d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the contraction position. -/
theorem Plain.rhs0 (h : Plain d) (i : (⟨2, ![M, N]⟩ : Shape).Idx) (q : d.contr.Idx) :
    (d.rhsIdx i q 0).val = (q ⟨0, by rw [h.rank]; exact Nat.one_pos⟩).val :=
  d.rhsIdx_val_of_single h.rc i q

/-- The right operand's column is the result's column. -/
theorem Plain.rhs1 (h : Plain d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The contracted axis has the operands' shared extent. -/
theorem Plain.size (h : Plain d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

end Cert.LibPlainDot

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.BodyAt.lean ====
/-
  The body's stored value, read at a row and a column.

  Every operation of the body acts inside a row: products contract along the row, slices and
  concatenations move columns, the reductions run along axis 1 and their results are stretched back
  along it.  So row `r` of the stored tile is a function of row `r` of the input tile and of the
  resident weights, and that function is the specification's: the row's 1536 features (in the
  kernel's layout: query, key and value blocks of 512 columns, head-major inside a block), the
  eight heads attending to each other, the output projection.
-/
import proofs.«121395_j16020228014689_2_alg».proof.Proof.Body
import proofs.«121395_j16020228014689_2_alg».proof.Proof.Spec
import proofs.«121395_j16020228014689_2_alg».proof.Proof.LibPlainDot
import proofs.«121395_j16020228014689_2_alg».proof.Proof.LibMatmulRows
import Idealize.ShloMosaic.Lib.Pipeline.Value
import Idealize.ShloMosaic.Lib.ValueLayout
import Idealize.ShloMosaic.PureOps.Ideal.Laws

noncomputable section

namespace Cert.KernelIdeal.BodyAt

open Idealize.ShloMosaic Idealize.ShloMosaic.ValueIdx Idealize.SL.Sem Cert.KernelIdeal Cert.KernelIdeal.Gen Cert.KernelIdeal.Body

/-- The column, in the kernel's layout of the 1536 features, of entry `d` of part `t` of head `h`. -/
def kfeat (t : Fin 3) (h : Fin 8) (d : Fin 64) : Fin 1536 :=
  ⟨512 * t.val + 64 * h.val + d.val, by have := t.isLt; have := h.isLt; have := d.isLt; omega⟩

/-- Row `r` of the stored tile at column `e`, from row `r` of the input tile and the resident weights. -/
def tileRow (x0 : Vec Ideal S1024x512 .f32) (x1 : Vec Ideal S512x1536 .bf16) (x2 : Vec Ideal S1x1536 .f32)
    (x3 : Vec Ideal S512x512 .bf16) (x4 : Vec Ideal S1x512 .f32) (r : Fin 1024) (e : Fin 512) : EReal :=
  Cert.Spec.lin (fun c => Cert.Spec.heads
      (fun h d => Cert.Spec.lin (fun k => x0 (ix2 r k)) (fun j k => x1 (ix2 k j)) (fun j => x2 (ix2 (0 : Fin 1) j)) (kfeat 0 h d))
      (fun h d => Cert.Spec.lin (fun k => x0 (ix2 r k)) (fun j k => x1 (ix2 k j)) (fun j => x2 (ix2 (0 : Fin 1) j)) (kfeat 1 h d))
      (fun h d => Cert.Spec.lin (fun k => x0 (ix2 r k)) (fun j k => x1 (ix2 k j)) (fun j => x2 (ix2 (0 : Fin 1) j)) (kfeat 2 h d))
      (Cert.Spec.headOf c) (Cert.Spec.dimOf c))
    (fun e c => x3 (ix2 c e)) (fun e => x4 (ix2 (0 : Fin 1) e)) e

/-- Column `64·h + d` of a 512-column tile. -/
def c64 (h : Fin 8) (d : Fin 64) : Fin 512 := ⟨64 * h.val + d.val, by have := h.isLt; have := d.isLt; omega⟩

/-! ## The layout operations at an index -/

theorem blk_apply (h : Fin 8) (A : FVec Ideal S1024x512 .f32) (r : Fin 1024) (d : Fin 64) :
    blk h A (ix2 r d) = A (ix2 r (c64 h d)) := by
  unfold blk
  exact extractStridedSlice_apply _ A (blk_slices h) (ix2 r d) (ix2 r (c64 h d)) (fun a => by
    match a with
    | ⟨0, _⟩ => show r.val = 0 + r.val; omega
    | ⟨1, _⟩ => rfl)

theorem col_apply (g : Fin 8) (P : FVec Ideal S1024x8 .f32) (r : Fin 1024) :
    col g P (ix2 r (0 : Fin 1)) = P (ix2 r g) := by
  unfold col
  exact extractStridedSlice_apply _ P (col_slices g) (ix2 r (0 : Fin 1)) (ix2 r g) (fun a => by
    match a with
    | ⟨0, _⟩ => show r.val = 0 + r.val; omega
    | ⟨1, _⟩ => rfl)

/-- A vector of 1024 entries stood up as a column: entry `r` sits at (r, 0). -/
theorem column_apply (v : FVec Ideal S1024 .f32) (r : Fin 1024) :
    shapeCast S1024x1 v shapeCasts_S1024_S1024x1 (ix2 r (0 : Fin 1)) = v (ix1 r) :=
  shapeCast_apply v shapeCasts_S1024_S1024x1 (ix2 r (0 : Fin 1)) (ix1 r) (by
    rw [Shape.rowMajor_val_one, Shape.rowMajor_val_two]; show r.val = r.val * 1 + 0; omega)

/-- A column stretched over eight lanes. -/
theorem stretch8_apply (v : FVec Ideal S1024x1 .f32) (r : Fin 1024) (g : Fin 8) :
    broadcastTo S1024x8 v broadcasts_S1024x1_S1024x8 (ix2 r g) = v (ix2 r (0 : Fin 1)) :=
  broadcastTo_apply v broadcasts_S1024x1_S1024x8 (ix2 r g) (ix2 r (0 : Fin 1)) (fun a => by
    match a with
    | ⟨0, _⟩ => show r.val = if (1024 : Nat) = 1 then 0 else r.val; rw [if_neg (by decide)]
    | ⟨1, _⟩ => show 0 = if (1 : Nat) = 1 then 0 else g.val; rw [if_pos rfl])

/-- A column stretched over 64 lanes. -/
theorem stretch64_apply (v : FVec Ideal S1024x1 .f32) (r : Fin 1024) (d : Fin 64) :
    broadcastTo S1024x64 v broadcasts_S1024x1_S1024x64 (ix2 r d) = v (ix2 r (0 : Fin 1)) :=
  broadcastTo_apply v broadcasts_S1024x1_S1024x64 (ix2 r d) (ix2 r (0 : Fin 1)) (fun a => by
    match a with
    | ⟨0, _⟩ => show r.val = if (1024 : Nat) = 1 then 0 else r.val; rw [if_neg (by decide)]
    | ⟨1, _⟩ => show 0 = if (1 : Nat) = 1 then 0 else d.val; rw [if_pos rfl])

/-! ## The reductions along a row -/

theorem sum64_apply (v : FVec Ideal S1024x64 .f32) (r : Fin 1024) :
    multiReduction .add [1] S1024 v 0x00000000#32 reduces_S1024x64_S1024 (.inl rfl) rfl (ix1 r) = ∑ d : Fin 64, v (ix2 r d) := by
  refine (Ideal.multiReduction_add_single v 0x00000000#32 reduces_S1024x64_S1024 (.inl rfl) rfl (ix1 r)).trans ?_
  refine Finset.sum_congr rfl fun d _ => congrArg v (funext fun a => Fin.ext ?_)
  match a with
  | ⟨0, _⟩ => rfl
  | ⟨1, _⟩ => rfl

theorem sum8_apply (v : FVec Ideal S1024x8 .f32) (r : Fin 1024) :
    multiReduction .add [1] S1024 v 0x00000000#32 reduces_S1024x8_S1024 (.inl rfl) rfl (ix1 r) = ∑ g : Fin 8, v (ix2 r g) := by
  refine (Ideal.multiReduction_add_single v 0x00000000#32 reduces_S1024x8_S1024 (.inl rfl) rfl (ix1 r)).trans ?_
  refine Finset.sum_congr rfl fun g _ => congrArg v (funext fun a => Fin.ext ?_)
  match a with
  | ⟨0, _⟩ => rfl
  | ⟨1, _⟩ => rfl

theorem max8_apply (S : FVec Ideal S1024x8 .f32) (r : Fin 1024) :
    multiReduction .maximumf [1] S1024 S 0xFF800000#32 reduces_S1024x8_S1024 (.inl rfl) rfl (ix1 r)
      = Cert.Spec.rowMax (fun g => S (ix2 r g)) := by
  refine (Ideal.multiReduction_maximumf_single S 0xFF800000#32 reduces_S1024x8_S1024 (.inl rfl) rfl (ix1 r)).trans ?_
  have hf : (S ∘ reduces_S1024x8_S1024.lift (ix1 r)) = fun g : Fin 8 => S (ix2 r g) :=
    funext fun g => congrArg S (funext fun a => Fin.ext (by
      match a with
      | ⟨0, _⟩ => rfl
      | ⟨1, _⟩ => rfl))
  exact congrArg (fun f => Finset.fold max (Ideal.ofBits .f32 0xFF800000#32) f (Finset.univ : Finset (Fin 8))) hf

/-! ## The tables of one head -/

theorem scoreCol_apply (q k : FVec Ideal S1024x64 .f32) (r : Fin 1024) :
    scoreCol q k (ix2 r (0 : Fin 1)) = (∑ d : Fin 64, q (ix2 r d) * k (ix2 r d)) * Ideal.ofBits .f32 0x3E000000#32 := by
  unfold scoreCol
  rw [mulf_apply, column_apply, sum64_apply]
  rfl

theorem scoreTab_apply (q : FVec Ideal S1024x64 .f32) (K : FVec Ideal S1024x512 .f32) (r : Fin 1024) (g : Fin 8) :
    scoreTab q K (ix2 r g) = scoreCol q (blk g K) (ix2 r (0 : Fin 1)) := by
  unfold scoreTab
  exact concatenate_ofFn_unit_apply (1 : Fin S1024x8.rank) (fun g : Fin 8 => scoreCol q (blk g K)) _ rfl rfl (ix2 r g) g rfl
    (ix2 r (0 : Fin 1)) (fun b hb => by
      match b with
      | ⟨0, _⟩ => rfl
      | ⟨1, _⟩ => exact absurd rfl hb)

theorem maxTab_apply (S : FVec Ideal S1024x8 .f32) (r : Fin 1024) (g : Fin 8) :
    maxTab S (ix2 r g) = Cert.Spec.rowMax (fun g' => S (ix2 r g')) := by
  unfold maxTab
  rw [stretch8_apply, column_apply, max8_apply]

theorem expTab_apply (S : FVec Ideal S1024x8 .f32) (r : Fin 1024) (g : Fin 8) :
    expTab S (ix2 r g) = Ideal.exp (S (ix2 r g) - Cert.Spec.rowMax (fun g' => S (ix2 r g'))) := by
  unfold expTab
  show Ideal.exp (subf S (maxTab S) (ix2 r g)) = _
  rw [subf_apply, maxTab_apply]

theorem softmaxTab_apply (S : FVec Ideal S1024x8 .f32) (r : Fin 1024) (g : Fin 8) :
    softmaxTab S (ix2 r g) = Cert.Spec.softmax (fun g' => S (ix2 r g')) g := by
  unfold softmaxTab Cert.Spec.softmax
  rw [divf_apply, stretch8_apply, column_apply, sum8_apply, expTab_apply]
  exact congrArg (Ideal.div _) (Finset.sum_congr rfl fun g' _ => expTab_apply S r g')

theorem term_apply (P : FVec Ideal S1024x8 .f32) (V : FVec Ideal S1024x512 .f32) (g : Fin 8) (r : Fin 1024) (d : Fin 64) :
    term P V g (ix2 r d) = P (ix2 r g) * V (ix2 r (c64 g d)) := by
  unfold term
  rw [mulf_apply, stretch64_apply, col_apply, blk_apply]

theorem mixVec_apply (P : FVec Ideal S1024x8 .f32) (V : FVec Ideal S1024x512 .f32) (r : Fin 1024) (d : Fin 64) :
    mixVec P V (ix2 r d) = ∑ g : Fin 8, P (ix2 r g) * V (ix2 r (c64 g d)) := by
  unfold mixVec
  simp only [addf_apply, term_apply]
  rw [Fin.sum_univ_eight]
  show Ideal.ofBits .f32 0x00000000#32 + _ + _ + _ + _ + _ + _ + _ + _ = _
  rw [Ideal.ofBits_zero_f32, zero_add]

theorem headVec_apply (h : Fin 8) (Q K V : FVec Ideal S1024x512 .f32) (r : Fin 1024) (d : Fin 64) :
    headVec h Q K V (ix2 r d)
      = Cert.Spec.heads (fun h d => Q (ix2 r (c64 h d))) (fun g d => K (ix2 r (c64 g d))) (fun g d => V (ix2 r (c64 g d))) h d := by
  unfold headVec Cert.Spec.heads
  rw [mixVec_apply]
  refine Finset.sum_congr rfl fun g _ => ?_
  rw [softmaxTab_apply]
  have hs : (fun g' => scoreTab (blk h Q) K (ix2 r g'))
      = Cert.Spec.score (fun h d => Q (ix2 r (c64 h d))) (fun g d => K (ix2 r (c64 g d))) h := by
    funext g'
    rw [scoreTab_apply, scoreCol_apply]
    unfold Cert.Spec.score
    simp only [blk_apply]
  rw [hs]

theorem joinHeads_apply (H : Fin 8 → FVec Ideal S1024x64 .f32) (r : Fin 1024) (c : Fin 512) :
    joinHeads H (ix2 r c) = H (Cert.Spec.headOf c) (ix2 r (Cert.Spec.dimOf c)) := by
  unfold joinHeads
  exact concatenate_ofFn_apply (1 : Fin S1024x512.rank) H _ rfl 64 rfl (ix2 r c) (Cert.Spec.headOf c) rfl
    (ix2 r (Cert.Spec.dimOf c)) rfl (fun b hb => by
      match b with
      | ⟨0, _⟩ => rfl
      | ⟨1, _⟩ => exact absurd rfl hb)

/-! ## The two projections -/

theorem plain_qkv : Cert.LibPlainDot.Plain dot_S1024x512_S512x1536_S1024x1536_1_0_0_1_n_n := ⟨rfl, rfl, rfl, rfl, rfl, rfl⟩
theorem plain_out : Cert.LibPlainDot.Plain dot_S1024x512_S512x512_S1024x512_1_0_0_1_n_n := ⟨rfl, rfl, rfl, rfl, rfl, rfl⟩

theorem qkv_apply (x0 : Vec Ideal S1024x512 .f32) (x1 : Vec Ideal S512x1536 .bf16) (x2 : Vec Ideal S1x1536 .f32) (r : Fin 1024) (j : Fin 1536) :
    k0_pay2 x0 x1 x2 (ix2 r j)
      = Cert.Spec.lin (fun k => x0 (ix2 r k)) (fun j k => x1 (ix2 k j)) (fun j => x2 (ix2 (0 : Fin 1) j)) j := by
  unfold k0_pay2 Cert.Spec.lin
  simp only [shapeCast_self]
  rw [addf_apply, Cert.LibMatmulRows.matmul_zero_ix2 _ plain_qkv.rank plain_qkv.size plain_qkv.lhs0 plain_qkv.lhs1 plain_qkv.rhs0 plain_qkv.rhs1,
    broadcastTo_1b_ab_apply]
  rfl

theorem outVec_apply (val : FVec Ideal S1024x512 .f32) (x3 : Vec Ideal S512x512 .bf16) (x4 : Vec Ideal S1x512 .f32) (r : Fin 1024) (e : Fin 512) :
    outVec val x3 x4 (ix2 r e) = Cert.Spec.lin (fun c => val (ix2 r c)) (fun e c => x3 (ix2 c e)) (fun e => x4 (ix2 (0 : Fin 1) e)) e := by
  unfold outVec Cert.Spec.lin
  simp only [shapeCast_self]
  rw [addf_apply, Cert.LibMatmulRows.matmul_zero_ix2 _ plain_out.rank plain_out.size plain_out.lhs0 plain_out.lhs1 plain_out.rhs0 plain_out.rhs1,
    broadcastTo_1b_ab_apply]
  rfl

/-- The three 512-column blocks of the projection hold the three parts. -/
theorem part_apply (x0 : Vec Ideal S1024x512 .f32) (x1 : Vec Ideal S512x1536 .bf16) (x2 : Vec Ideal S1x1536 .f32) (r : Fin 1024) (h : Fin 8) (d : Fin 64) :
    k0_pay3 x0 x1 x2 (ix2 r (c64 h d)) = k0_pay2 x0 x1 x2 (ix2 r (kfeat 0 h d))
    ∧ k0_pay4 x0 x1 x2 (ix2 r (c64 h d)) = k0_pay2 x0 x1 x2 (ix2 r (kfeat 1 h d))
    ∧ k0_pay5 x0 x1 x2 (ix2 r (c64 h d)) = k0_pay2 x0 x1 x2 (ix2 r (kfeat 2 h d)) := by
  have hh := h.isLt; have hd := d.isLt
  refine ⟨?_, ?_, ?_⟩
  · unfold k0_pay3
    exact extractStridedSlice_apply _ _ slices_S1024x1536_o0_0_S1024x512 (ix2 r (c64 h d)) (ix2 r (kfeat 0 h d)) (fun a => by
      match a with
      | ⟨0, _⟩ => show r.val = 0 + r.val; omega
      | ⟨1, _⟩ => show 512 * 0 + 64 * h.val + d.val = 0 + (64 * h.val + d.val); omega)
  · unfold k0_pay4
    exact extractStridedSlice_apply _ _ slices_S1024x1536_o0_512_S1024x512 (ix2 r (c64 h d)) (ix2 r (kfeat 1 h d)) (fun a => by
      match a with
      | ⟨0, _⟩ => show r.val = 0 + r.val; omega
      | ⟨1, _⟩ => show 512 * 1 + 64 * h.val + d.val = 512 + (64 * h.val + d.val); omega)
  · unfold k0_pay5
    exact extractStridedSlice_apply _ _ slices_S1024x1536_o0_1024_S1024x512 (ix2 r (c64 h d)) (ix2 r (kfeat 2 h d)) (fun a => by
      match a with
      | ⟨0, _⟩ => show r.val = 0 + r.val; omega
      | ⟨1, _⟩ => show 512 * 2 + 64 * h.val + d.val = 1024 + (64 * h.val + d.val); omega)

/-! ## The stored tile -/

theorem tileOut_apply (x0 : Vec Ideal S1024x512 .f32) (x1 : Vec Ideal S512x1536 .bf16) (x2 : Vec Ideal S1x1536 .f32)
    (x3 : Vec Ideal S512x512 .bf16) (x4 : Vec Ideal S1x512 .f32) (r : Fin 1024) (e : Fin 512) :
    tileOut (F := Ideal) x0 x1 x2 x3 x4 (ix2 r e) = tileRow x0 x1 x2 x3 x4 r e := by
  unfold tileOut tileRow
  rw [outVec_apply]
  refine congrArg (fun f => Cert.Spec.lin f (fun e c => x3 (ix2 c e)) (fun e => x4 (ix2 (0 : Fin 1) e)) e) (funext fun c => ?_)
  rw [joinHeads_apply, headVec_apply]
  simp only [(part_apply x0 x1 x2 r _ _).1, (part_apply x0 x1 x2 r _ _).2.1, (part_apply x0 x1 x2 r _ _).2.2, qkv_apply]

end Cert.KernelIdeal.BodyAt

end
-- ==== Proof.HostArrays.lean ====
/-
  The arrays the region finds.

  Before the one region the program prepares its five operands on the host: the input flattened to 61440 rows of
  512 entries; the first weight with its rows gathered through a literal table of 1536 words and then transposed;
  the first bias gathered through the same table and laid out as one row; the second weight transposed; the
  second bias laid out as one row.  The table sends position `512·t + 64·h + d` (part `t`, head `h`, entry `d`)
  to feature `192·h + 64·t + d`, so after it the 1536 features stand part after part instead of head after head.
  This file reads each prepared array at an index in terms of the program's arguments.
-/
import proofs.«121395_j16020228014689_2_alg».proof.Proof.Gen.KernelIdeal.Frame
import proofs.«121395_j16020228014689_2_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.HostArrays

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (c : Dev nD)

/-- Where the table sends feature position `j = 512·t + 64·h + d`: to feature `192·h + 64·t + d`. -/
def perm (j : Fin 1536) : Fin 1536 :=
  ⟨192 * ((j.val % 512) / 64) + 64 * (j.val / 512) + j.val % 64, by have := j.isLt; omega⟩

theorem perm_feat (t : Fin 3) (h : Fin 8) (d : Fin 64) :
    perm ⟨512 * t.val + 64 * h.val + d.val, by have := t.isLt; have := h.isLt; have := d.isLt; omega⟩ = Cert.Spec.feat t h d := by
  have := t.isLt; have := h.isLt; have := d.isLt
  refine Fin.ext ?_
  show 192 * (((512 * t.val + 64 * h.val + d.val) % 512) / 64) + 64 * ((512 * t.val + 64 * h.val + d.val) / 512)
      + (512 * t.val + 64 * h.val + d.val) % 64 = 192 * h.val + 64 * t.val + d.val
  omega

/-- The table of 1536 words, entry by entry: entry `j`, read as a signed start index and clamped to the operand's rows,
    is `perm j`. -/
theorem lit0_clamp : ∀ j : Fin 1536, min (lit0 j).toInt.toNat (1536 - 1)
    = 192 * ((j.val % 512) / 64) + 64 * (j.val / 512) + j.val % 64 := by
  decide +kernel

section Gather
variable {α : Type}

local notation "G₂" => gather_S1536x512_S1536x1_S1536x512_1_0_n_n_0_1_1512
local notation "G₁" => gather_S1536_S1536x1_S1536_n_0_n_n_0_1_1

/-- The gather of whole rows read at `(j, k)`: the operand's row at the start index `idx[j, 0]`, read signed and
    clamped into the 1536 rows, at column `k`. -/
theorem gather_rows_apply (x : S1536x512.Idx → α) (idx : IVec S1536x1 32) (j : Fin 1536) (k : Fin 512) :
    Host.gather G₂ x idx (ix2 j k)
      = x (ix2 (⟨min (idx (ix2 j (0 : Fin 1))).toInt.toNat (1536 - 1), by omega⟩ : Fin 1536) k) := by
  unfold Host.gather
  refine congrArg x (funext fun a => Fin.ext ?_)
  match a with
  | ⟨0, _⟩ =>
    show (G₂).start (ix2 j k) idx 0 + (G₂).batchCoord (ix2 j k) 0 + (G₂).offCoord (ix2 j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (G₂).startIndexMap from List.mem_singleton.mpr rfl)]
    have hsi : (G₂).siIdx (ix2 j k) ⟨List.idxOf (0 : Fin 2) (G₂).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    show (G₂).start (ix2 j k) idx 1 + (G₂).batchCoord (ix2 j k) 1 + (G₂).offCoord (ix2 j k) 1 = k.val
    rw [GatherDims.batchCoord_eq_zero _ _ _ List.not_mem_nil]
    unfold GatherDims.start
    rw [dif_neg (show (1 : Fin 2) ∉ (G₂).startIndexMap by decide)]
    unfold GatherDims.offCoord
    rw [dif_pos (show (1 : Fin 2) ∈ (G₂).sKept by decide), Nat.add_zero, Nat.zero_add]
    rfl

/-- The gather of single entries read at `j`: the operand at the start index `idx[j, 0]`, read signed and clamped. -/
theorem gather_entries_apply (x : S1536.Idx → α) (idx : IVec S1536x1 32) (j : Fin 1536) :
    Host.gather G₁ x idx (ix1 j)
      = x (ix1 (⟨min (idx (ix2 j (0 : Fin 1))).toInt.toNat (1536 - 1), by omega⟩ : Fin 1536)) := by
  unfold Host.gather
  refine congrArg x (funext fun a => Fin.ext ?_)
  obtain rfl : a = 0 := Subsingleton.elim _ _
  show (G₁).start (ix1 j) idx 0 + (G₁).batchCoord (ix1 j) 0 + (G₁).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (G₁).startIndexMap from List.mem_singleton.mpr rfl)]
  have hsi : (G₁).siIdx (ix1 j) ⟨List.idxOf (0 : Fin 1) (G₁).startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

end Gather

/-- The start indices both gathers read: the table as a column (the select's mask is all false, so its other branch,
    the table shifted by 1536, is never taken). Entry `(j, 0)` is the table's word `j`. -/
theorem idx_apply (j : Fin 1536) (u : Fin 1) :
    (broadcastInDim S1536x1 ![0] bcast_S1536_S1536x1_0
        (select (constantI S1536 1 0#1)
          (addi (fun i => lit0 (S1536.rowMajor i)) (broadcastInDim S1536 ![] bcast_S_S1536 (constantI S_ 32 1536#32)))
          fun i => lit0 (S1536.rowMajor i)) : IVec S1536x1 32) (ix2 j u) = lit0 j := by
  refine (broadcastInDim_apply (s := S1536) (t := S1536x1) ![0] _ _ (ix2 j u) (ix1 j) ?_).trans ?_
  · intro a
    obtain rfl : a = 0 := Subsingleton.elim _ _
    show j.val = if (1536 : ℕ) = 1 then 0 else j.val
    rw [if_neg (by decide)]
  · rw [select_apply]
    show Scalar.select 0#1 _ (lit0 (S1536.rowMajor (ix1 j))) = lit0 j
    rw [select_zero]
    refine congrArg lit0 (Fin.ext ?_)
    show ((⟨1, ![1536]⟩ : Shape).rowMajor (ix1 j)).val = j.val
    rw [Shape.rowMajor_val_one]

/-- The table's word `j`, read as a signed start index and clamped to the 1536 rows, is row `perm j`. -/
theorem clamp_eq (j : Fin 1536) (h : min (lit0 j).toInt.toNat (1536 - 1) < 1536) :
    (⟨min (lit0 j).toInt.toNat (1536 - 1), h⟩ : Fin 1536) = perm j :=
  Fin.ext (lit0_clamp j)

/-- A matrix transposed and then narrowed in format reads, at `(k, j)`, the operand at `(j, k)`: on extended reals the
    narrowing is the identity. -/
theorem truncf_transpose_apply (X : FVec Idealize.ShloMosaic.Ideal S1536x512 .f32) (h : S1536x512.Transposes [1, 0] S512x1536)
    (h' : FTy.bits .bf16 < FTy.bits .f32) (k : Fin 512) (j : Fin 1536) :
    (truncf .bf16 (transpose S512x1536 [1, 0] X h) h' : FVec Idealize.ShloMosaic.Ideal S512x1536 .bf16) (ix2 k j) = X (ix2 j k) :=
  transpose_ix2_apply X h k j

/-- The input rows laid out flat: row `r` of the 61440 × 512 array is row `r % 2048` of batch `r / 2048`. -/
theorem V_v0 (r : Fin 61440) (k : Fin 512) :
    (Gen.V m c main_v0 : S61440x512.Idx → EReal) (ix2 r k)
      = (m ((c : Thread nD τ).loc main_arg0) : S30x2048x512.Idx → EReal)
          (ix3 (⟨r.val / 2048, by have := r.isLt; omega⟩ : Fin 30) (⟨r.val % 2048, by omega⟩ : Fin 2048) k) := by
  show StableHlo.after hostOps0 (fun b => m (c, b)) (Proc.devRef .tc main_v0) _ = _
  after_results
  refine shapeCast_apply _ _ _ _ ?_
  show ((⟨3, ![30, 2048, 512]⟩ : Shape).rowMajor _).val = ((⟨2, ![61440, 512]⟩ : Shape).rowMajor _).val
  rw [Shape.rowMajor_val_three, Shape.rowMajor_val_two]
  show (r.val / 2048 * 2048 + r.val % 2048) * 512 + k.val = r.val * 512 + k.val
  have := Nat.div_add_mod r.val 2048
  omega

/-- The second weight matrix transposed (the narrowing of the format is the identity on extended reals). -/
theorem V_v14 (c' e : Fin 512) :
    (Gen.V m c main_v14 : S512x512.Idx → EReal) (ix2 c' e)
      = (m ((c : Thread nD τ).loc main_arg3) : S512x512.Idx → EReal) (ix2 e c') := by
  show StableHlo.after hostOps0 (fun b => m (c, b)) (Proc.devRef .tc main_v14) _ = _
  after_results
  exact transpose_ix2_apply _ _ c' e

/-- The second bias as a one-row matrix. -/
theorem V_v16 (e : Fin 512) :
    (Gen.V m c main_v16 : S1x512.Idx → EReal) (ix2 (0 : Fin 1) e)
      = (m ((c : Thread nD τ).loc main_arg4) : S512.Idx → EReal) (ix1 e) := by
  show StableHlo.after hostOps0 (fun b => m (c, b)) (Proc.devRef .tc main_v16) _ = _
  after_results
  exact shapeCast_a_1a_apply _ _ 0 e

/-- The first weight matrix with its rows permuted by the table, transposed (the narrowing of the format is the
    identity on extended reals): column `j` is row `perm j` of the weight. -/
theorem V_v12 (k : Fin 512) (j : Fin 1536) :
    (Gen.V m c main_v12 : S512x1536.Idx → EReal) (ix2 k j)
      = (m ((c : Thread nD τ).loc main_arg1) : S1536x512.Idx → EReal) (ix2 (perm j) k) := by
  show StableHlo.after hostOps0 (fun b => m (c, b)) (Proc.devRef .tc main_v12) _ = _
  after_results
  refine (truncf_transpose_apply _ _ _ k j).trans ?_
  refine (gather_rows_apply _ _ j k).trans ?_
  refine congrArg (m ((c : Thread nD τ).loc main_arg1) : S1536x512.Idx → EReal) ?_
  refine congrArg (fun r : Fin 1536 => ix2 r k) ?_
  refine Fin.ext ?_
  exact (congrArg (fun w : BitVec 32 => min w.toInt.toNat (1536 - 1)) (idx_apply j 0)).trans (lit0_clamp j)

/-- The first bias permuted by the table, as a one-row matrix: entry `j` is entry `perm j` of the bias. -/
theorem V_v15 (j : Fin 1536) :
    (Gen.V m c main_v15 : S1x1536.Idx → EReal) (ix2 (0 : Fin 1) j)
      = (m ((c : Thread nD τ).loc main_arg2) : S1536.Idx → EReal) (ix1 (perm j)) := by
  show StableHlo.after hostOps0 (fun b => m (c, b)) (Proc.devRef .tc main_v15) _ = _
  after_results
  refine (shapeCast_a_1a_apply _ _ 0 j).trans ?_
  refine (gather_entries_apply _ _ j).trans ?_
  refine congrArg (m ((c : Thread nD τ).loc main_arg2) : S1536.Idx → EReal) ?_
  refine congrArg (fun r : Fin 1536 => ix1 r) ?_
  refine Fin.ext ?_
  exact (congrArg (fun w : BitVec 32 => min w.toInt.toNat (1536 - 1)) (idx_apply j 0)).trans (lit0_clamp j)

end Cert.KernelIdeal.HostArrays
end
-- ==== Proof.Final.lean ====
/-
  From the tile to the whole array.

  The grid has 60 points; point t stores rows 1024·t … 1024·t + 1023 of the result, computed from the
  same rows of the input and from the four resident arrays.  Row y of the tile at point t is row
  1024·t + y of the flattened input, that is row (1024·t + y) % 2048 of batch (1024·t + y) / 2048, and
  the stored row is the specification's function of that row.  The 60 blocks cover the 61440 rows.
-/
import proofs.«121395_j16020228014689_2_alg».proof.Proof.Gen.KernelIdeal.Frame
import proofs.«121395_j16020228014689_2_alg».proof.Proof.Norm
import proofs.«121395_j16020228014689_2_alg».proof.Proof.BodyAt
import proofs.«121395_j16020228014689_2_alg».proof.Proof.Spec
import proofs.«121395_j16020228014689_2_alg».proof.Proof.HostArrays
import Idealize.ShloMosaic.Lib.Pipeline.Value

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.BodyAt

/-! ## One row: the kernel's layout against the specification's -/

section Row

variable (a0 : (⟨3, ![30, 2048, 512]⟩ : Shape).Idx → EReal) (a1 : (⟨2, ![1536, 512]⟩ : Shape).Idx → EReal)
  (a2 : (⟨1, ![1536]⟩ : Shape).Idx → EReal) (a3 : (⟨2, ![512, 512]⟩ : Shape).Idx → EReal)
  (a4 : (⟨1, ![512]⟩ : Shape).Idx → EReal)

/-- The specification on the flattened rows: row i of the 61440 is row i % 2048 of batch i / 2048. -/
def G2 : (⟨2, ![61440, 512]⟩ : Shape).Idx → EReal := fun i =>
  Cert.Spec.G a0 a1 a2 a3 a4
    (ix3 (⟨(i 0).val / 2048, by have h : (i 0).val < 61440 := (i 0).isLt; omega⟩ : Fin 30)
      (⟨(i 0).val % 2048, by omega⟩ : Fin 2048) (⟨(i 1).val, (i 1).isLt⟩ : Fin 512))

variable (x0 : Vec Ideal S1024x512 .f32) (x1 : Vec Ideal S512x1536 .bf16) (x2 : Vec Ideal S1x1536 .f32)
  (x3 : Vec Ideal S512x512 .bf16) (x4 : Vec Ideal S1x512 .f32)
  (perm : Fin 1536 → Fin 1536) (y : Fin 1024) (b : Fin 30) (l : Fin 2048)

/-- A feature of the row in the kernel's layout is the specification's feature it is a permutation of. -/
theorem lin_kfeat (hperm : ∀ t h d, perm (kfeat t h d) = Cert.Spec.feat t h d)
    (hx0 : ∀ k : Fin 512, x0 (ix2 y k) = a0 (ix3 b l k))
    (hx1 : ∀ (k : Fin 512) (j : Fin 1536), x1 (ix2 k j) = a1 (ix2 (perm j) k))
    (hx2 : ∀ j : Fin 1536, x2 (ix2 (0 : Fin 1) j) = a2 (ix1 (perm j)))
    (t : Fin 3) (h : Fin 8) (d : Fin 64) :
    Cert.Spec.lin (fun k => x0 (ix2 y k)) (fun j k => x1 (ix2 k j)) (fun j => x2 (ix2 (0 : Fin 1) j)) (kfeat t h d)
      = Cert.Spec.lin (fun k => a0 (ix3 b l k)) (fun e k => a1 (ix2 e k)) (fun e => a2 (ix1 e)) (Cert.Spec.feat t h d) := by
  unfold Cert.Spec.lin
  simp only [hx0, hx1, hx2, hperm]

/-- Row y of the stored tile is the specification's output of the row of the input it was computed from. -/
theorem tileRow_eq (hperm : ∀ t h d, perm (kfeat t h d) = Cert.Spec.feat t h d)
    (hx0 : ∀ k : Fin 512, x0 (ix2 y k) = a0 (ix3 b l k))
    (hx1 : ∀ (k : Fin 512) (j : Fin 1536), x1 (ix2 k j) = a1 (ix2 (perm j) k))
    (hx2 : ∀ j : Fin 1536, x2 (ix2 (0 : Fin 1) j) = a2 (ix1 (perm j)))
    (hx3 : ∀ (c e : Fin 512), x3 (ix2 c e) = a3 (ix2 e c))
    (hx4 : ∀ e : Fin 512, x4 (ix2 (0 : Fin 1) e) = a4 (ix1 e))
    (e : Fin 512) :
    tileRow x0 x1 x2 x3 x4 y e = Cert.Spec.G a0 a1 a2 a3 a4 (ix3 b l e) := by
  unfold tileRow Cert.Spec.G Cert.Spec.rowOut
  simp only [lin_kfeat a0 a1 a2 x0 x1 x2 perm y b l hperm hx0 hx1 hx2, hx3, hx4]

end Row

/-! ## The blocks of the six windows -/

variable (m : (ℓ : Loc nD τ sig) → Buf (Elt Ideal) ℓ)

theorem hz : (![0, 0] : Fin 2 → Nat) = fun _ => 0 := funext fun a => by fin_cases a <;> rfl

/-- The index maps over the grid: the row tiles of the input and of the result sit at block (t, 0), the four
    resident arrays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input tile at point t: row y is row 1024·t + y of the flattened input. -/
theorem iblk0_apply (c : Dev nD) (t : Fin cfg0.N) (y : Fin 1024) (k : Fin 512) (R : Fin 61440) (hR : R.val = 1024 * t.val + y.val) :
    (iblk m c 0 t : Vec Ideal S1024x512 .f32) (ix2 y k) = (V m c main_v0 : S61440x512.Idx → EReal) (ix2 R k) := by
  have hi := idx_facts t
  unfold iblk
  rw [View.read_apply]
  show V m c main_v0 _ = V m c main_v0 _
  congr 1
  funext a
  apply Fin.ext
  match a with
  | ⟨0, _⟩ => show win0_0.index t 0 * 1024 + 1 * y.val = R.val; rw [hi.1, hR]; omega
  | ⟨1, _⟩ => show win0_0.index t 1 * 512 + 1 * k.val = k.val; rw [hi.2.1]; omega

/-- A resident array's window at any point is the whole array. -/
theorem iblk1_apply (c : Dev nD) (t : Fin cfg0.N) (k : Fin 512) (j : Fin 1536) :
    (iblk m c 1 t : Vec Ideal S512x1536 .bf16) (ix2 k j) = (V m c main_v12 : S512x1536.Idx → EReal) (ix2 k j) := by
  have hi := idx_facts t
  unfold iblk
  rw [View.read_apply]
  show V m c main_v12 _ = V m c main_v12 _
  congr 1
  funext a
  apply Fin.ext
  match a with
  | ⟨0, _⟩ => show win0_1.index t 0 * 512 + 1 * k.val = k.val; rw [hi.2.2.1]; omega
  | ⟨1, _⟩ => show win0_1.index t 1 * 1536 + 1 * j.val = j.val; rw [hi.2.2.2.1]; omega

theorem iblk2_apply (c : Dev nD) (t : Fin cfg0.N) (j : Fin 1536) :
    (iblk m c 2 t : Vec Ideal S1x1536 .f32) (ix2 (0 : Fin 1) j) = (V m c main_v15 : S1x1536.Idx → EReal) (ix2 (0 : Fin 1) j) := by
  have hi := idx_facts t
  unfold iblk
  rw [View.read_apply]
  show V m c main_v15 _ = V m c main_v15 _
  congr 1
  funext a
  apply Fin.ext
  match a with
  | ⟨0, _⟩ => show win0_2.index t 0 * 1 + 1 * 0 = 0; rw [hi.2.2.2.2.1]
  | ⟨1, _⟩ => show win0_2.index t 1 * 1536 + 1 * j.val = j.val; rw [hi.2.2.2.2.2.1]; omega

theorem iblk3_apply (c : Dev nD) (t : Fin cfg0.N) (c' e : Fin 512) :
    (iblk m c 3 t : Vec Ideal S512x512 .bf16) (ix2 c' e) = (V m c main_v14 : S512x512.Idx → EReal) (ix2 c' e) := by
  have hi := idx_facts t
  unfold iblk
  rw [View.read_apply]
  show V m c main_v14 _ = V m c main_v14 _
  congr 1
  funext a
  apply Fin.ext
  match a with
  | ⟨0, _⟩ => show win0_3.index t 0 * 512 + 1 * c'.val = c'.val; rw [hi.2.2.2.2.2.2.1]; omega
  | ⟨1, _⟩ => show win0_3.index t 1 * 512 + 1 * e.val = e.val; rw [hi.2.2.2.2.2.2.2.1]; omega

theorem iblk4_apply (c : Dev nD) (t : Fin cfg0.N) (e : Fin 512) :
    (iblk m c 4 t : Vec Ideal S1x512 .f32) (ix2 (0 : Fin 1) e) = (V m c main_v16 : S1x512.Idx → EReal) (ix2 (0 : Fin 1) e) := by
  have hi := idx_facts t
  unfold iblk
  rw [View.read_apply]
  show V m c main_v16 _ = V m c main_v16 _
  congr 1
  funext a
  apply Fin.ext
  match a with
  | ⟨0, _⟩ => show win0_4.index t 0 * 1 + 1 * 0 = 0; rw [hi.2.2.2.2.2.2.2.2.1]
  | ⟨1, _⟩ => show win0_4.index t 1 * 512 + 1 * e.val = e.val; rw [hi.2.2.2.2.2.2.2.2.2.1]; omega

/-! ## What each point writes back, and the whole array -/

section Whole

variable (perm : Fin 1536 → Fin 1536)
  (hperm : ∀ (t : Fin 3) (h : Fin 8) (d : Fin 64), perm (kfeat t h d) = Cert.Spec.feat t h d)
  (H0 : ∀ (c : Dev nD) (r : Fin 61440) (k : Fin 512), (V m c main_v0 : S61440x512.Idx → EReal) (ix2 r k)
      = (m ((c : Thread nD τ).loc main_arg0) : S30x2048x512.Idx → EReal)
          (ix3 (⟨r.val / 2048, by have := r.isLt; omega⟩ : Fin 30) (⟨r.val % 2048, by omega⟩ : Fin 2048) k))
  (H1 : ∀ (c : Dev nD) (k : Fin 512) (j : Fin 1536), (V m c main_v12 : S512x1536.Idx → EReal) (ix2 k j)
      = (m ((c : Thread nD τ).loc main_arg1) : S1536x512.Idx → EReal) (ix2 (perm j) k))
  (H2 : ∀ (c : Dev nD) (j : Fin 1536), (V m c main_v15 : S1x1536.Idx → EReal) (ix2 (0 : Fin 1) j)
      = (m ((c : Thread nD τ).loc main_arg2) : S1536.Idx → EReal) (ix1 (perm j)))
  (H3 : ∀ (c : Dev nD) (c' e : Fin 512), (V m c main_v14 : S512x512.Idx → EReal) (ix2 c' e)
      = (m ((c : Thread nD τ).loc main_arg3) : S512x512.Idx → EReal) (ix2 e c'))
  (H4 : ∀ (c : Dev nD) (e : Fin 512), (V m c main_v16 : S1x512.Idx → EReal) (ix2 (0 : Fin 1) e)
      = (m ((c : Thread nD τ).loc main_arg4) : S512.Idx → EReal) (ix1 e))

/-- The result array: the specification's function of the five arguments, on the flattened rows. -/
def result (c : Dev nD) : S61440x512.Idx → EReal :=
  G2 (m ((c : Thread nD τ).loc main_arg0) : S30x2048x512.Idx → EReal) (m ((c : Thread nD τ).loc main_arg1) : S1536x512.Idx → EReal)
    (m ((c : Thread nD τ).loc main_arg2) : S1536.Idx → EReal) (m ((c : Thread nD τ).loc main_arg3) : S512x512.Idx → EReal)
    (m ((c : Thread nD τ).loc main_arg4) : S512.Idx → EReal)

include hperm H0 H1 H2 H3 H4 in
/-- Entry j of the tile stored at point t is the result at row 1024·t + j₀, column j₁. -/
theorem point_eq (c : Dev nD) (t : Fin cfg0.N) (j : S1024x512.Idx) (i : S61440x512.Idx)
    (hi0 : (i 0).val = 1024 * t.val + (j 0).val) (hi1 : (i 1).val = (j 1).val) :
    tileOut (F := Ideal) (iblk m c 0 t) (iblk m c 1 t) (iblk m c 2 t) (iblk m c 3 t) (iblk m c 4 t) j = result m c i := by
  have hN : cfg0.N = 60 := N_0
  have ht := t.isLt
  have hj0 : (j 0).val < 1024 := (j 0).isLt
  have hj1 : (j 1).val < 512 := (j 1).isLt
  have hR : 1024 * t.val + (j 0).val < 61440 := by omega
  refine (congrArg (tileOut (F := Ideal) (iblk m c 0 t) (iblk m c 1 t) (iblk m c 2 t) (iblk m c 3 t) (iblk m c 4 t)) (eq_ix2 j)).trans ?_
  refine (tileOut_apply _ _ _ _ _ (j 0) (j 1)).trans ?_
  refine (tileRow_eq (m ((c : Thread nD τ).loc main_arg0) : S30x2048x512.Idx → EReal) (m ((c : Thread nD τ).loc main_arg1) : S1536x512.Idx → EReal)
    (m ((c : Thread nD τ).loc main_arg2) : S1536.Idx → EReal) (m ((c : Thread nD τ).loc main_arg3) : S512x512.Idx → EReal)
    (m ((c : Thread nD τ).loc main_arg4) : S512.Idx → EReal) _ _ _ _ _ perm (j 0)
    (⟨(1024 * t.val + (j 0).val) / 2048, by omega⟩ : Fin 30) (⟨(1024 * t.val + (j 0).val) % 2048, by omega⟩ : Fin 2048)
    hperm ?_ ?_ ?_ ?_ ?_ (j 1)).trans ?_
  · intro k
    exact (iblk0_apply m c t (j 0) k ⟨1024 * t.val + (j 0).val, hR⟩ rfl).trans (H0 c _ k)
  · intro k j'
    exact (iblk1_apply m c t k j').trans (H1 c k j')
  · intro j'
    exact (iblk2_apply m c t j').trans (H2 c j')
  · intro c' e
    exact (iblk3_apply m c t c' e).trans (H3 c c' e)
  · intro e
    exact (iblk4_apply m c t e).trans (H4 c e)
  · unfold result G2
    refine congrArg (Cert.Spec.G _ _ _ _ _) (funext fun a => Fin.ext ?_)
    match a with
    | ⟨0, _⟩ => show (1024 * t.val + (j 0).val) / 2048 = (i 0).val / 2048; rw [hi0]
    | ⟨1, _⟩ => show (1024 * t.val + (j 0).val) % 2048 = (i 0).val % 2048; rw [hi0]
    | ⟨2, _⟩ => show (j 1).val = (i 1).val; rw [hi1]

include hperm H0 H1 H2 H3 H4 in
/-- What point t writes back is block t of the result. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5, Norm.out_eq, View.canon_unit_zero hz]
  simp only [View.ld_unit_zero (S := S1024x512) hz, View.ld_unit_zero (S := S512x1536) hz, View.ld_unit_zero (S := S1x1536) hz,
    View.ld_unit_zero (S := S512x512) hz, View.ld_unit_zero (S := S1x512) hz]
  obtain ⟨-, -, -, -, -, -, -, -, -, -, e0, e1⟩ := idx_facts t
  funext j
  refine point_eq m perm hperm H0 H1 H2 H3 H4 c t j (((cfg0.win 5).blk t).view.emb j) ?_ ?_
  · show win0_5.index t (0 : Fin 2) * 1024 + 1 * (j 0).val = 1024 * t.val + (j 0).val
    rw [e0]; omega
  · show win0_5.index t (1 : Fin 2) * 512 + 1 * (j 1).val = (j 1).val
    rw [e1]; omega

/-- An index of the result array is in point t's block iff each coordinate is in the block's range. -/
theorem mem_blk (t : Fin cfg0.N) (i : S61440x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v17).slice (win0_5.rect t)).set ↔ _
  rw [View.set_slice_whole, Rect.mem_set_unit]
  exact Iff.rfl

/-- Row r of the result is in the block of point r / 1024. -/
theorem cover (i : S61440x512.Idx) :
    ∃ t : Fin cfg0.N, (cfg0.win 5).flush t = true ∧ i ∈ ((cfg0.win 5).blk t).view.set := by
  have hN : cfg0.N = 60 := N_0
  have hi0 : (i 0).val < 61440 := (i 0).isLt
  have hi1 : (i 1).val < 512 := (i 1).isLt
  have hlt : (i 0).val / 1024 < cfg0.N := by omega
  refine ⟨⟨(i 0).val / 1024, hlt⟩, flush0_5 _, ?_⟩
  rw [mem_blk]
  obtain ⟨-, -, -, -, -, -, -, -, -, -, e0, e1⟩ := idx_facts ⟨(i 0).val / 1024, hlt⟩
  intro a
  match a with
  | ⟨0, _⟩ =>
    show win0_5.index ⟨(i 0).val / 1024, hlt⟩ (0 : Fin 2) * 1024 ≤ (i 0).val
      ∧ (i 0).val < win0_5.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, hlt⟩ (1 : Fin 2) * 512 ≤ (i 1).val
      ∧ (i 1).val < win0_5.index ⟨(i 0).val / 1024, hlt⟩ (1 : Fin 2) * 512 + 512
    rw [e1]; omega

include hperm H0 H1 H2 H3 H4 in
/-- The result array after the run is the specification's function of the arguments, on the flattened rows. -/
theorem final_of (c : Dev nD) : (dats m 0 c).arrAt 5 cfg0.N = result m c :=
  (dats m 0 c).arrAt_eq_of_cover 5 (result m c) (fun t _ => flushed_eq m perm hperm H0 H1 H2 H3 H4 c t) (cover)

end Whole

/-! ## With the prepared arrays read -/

/-- The result array after the run is the specification's function of the program's five arguments, on the flattened rows. -/
theorem final (c : Dev nD) : (dats m 0 c).arrAt 5 cfg0.N = result m c :=
  final_of m HostArrays.perm HostArrays.perm_feat (fun c r k => HostArrays.V_v0 m c r k) (fun c k j => HostArrays.V_v12 m c k j)
    (fun c j => HostArrays.V_v15 m c j) (fun c c' e => HostArrays.V_v14 m c c' e) (fun c e => HostArrays.V_v16 m c e) c

end Cert.KernelIdeal.Final

end
-- ==== Proof.KernelRun.lean ====
/-
  The idealized kernel's run with its result named.

  After the region the host reshapes the 61440 × 512 output array to 30 × 2048 × 512: entry (b, l, e)
  of the result is entry (2048·b + l, e) of the array, which is output `e` of row (b, l) of the
  specification.  The argument arrays are not written by any operation of the program.
-/
import proofs.«121395_j16020228014689_2_alg».proof.Proof.Final
import Idealize.ShloMosaic.Lib.StableHlo.Run

noncomputable section

namespace Cert.KernelIdeal.Run

open Idealize.ShloMosaic Idealize.ShloMosaic.ValueIdx Idealize.SL.Sem Cert.KernelIdeal Cert.KernelIdeal.Gen Idealize.ShloMosaic.StableHlo

variable (m : (ℓ : Loc nD τ sig) → Buf (Elt Ideal) ℓ)

/-- What the program's result buffer holds after the host operation that follows the region: the reshape of the
    region's output array. -/
theorem tail_v18 (c : Dev nD) :
    Pipeline.afterTail₀ cfgs (dats m) 0 (V0 m) [hostOps1] c main_v18
      = shapeCast S30x2048x512 ((dats m 0 c).arrAt 5 cfg0.N) shapeCasts_S61440x512_S30x2048x512 := by
  unfold Pipeline.afterTail₀
  show StableHlo.after hostOps1 _ (Proc.devRef .tc main_v18) = _
  after_results
  have e := Pipeline.withArrays_arr spec0 launch0.win.arr_inj c (V0 m c) (fun w => (dats m 0 c).arrAt w (cfgs 0).N) 5
  refine Eq.trans ?_ (congrArg (fun A => shapeCast S30x2048x512 A shapeCasts_S61440x512_S30x2048x512) e)
  rfl

/-- The result is the specification of the argument arrays. -/
theorem result_eq (c : Dev nD) :
    Pipeline.afterTail₀ cfgs (dats m) 0 (V0 m) [hostOps1] c main_v18
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [tail_v18, Cert.KernelIdeal.Final.final]
  funext i
  obtain ⟨b, l, e, rfl⟩ : ∃ (b : Fin 30) (l : Fin 2048) (e : Fin 512), i = ix3 b l e := ⟨i 0, i 1, i 2, eq_ix3 i⟩
  have hb := b.isLt; have hl := l.isLt
  refine (shapeCast_apply _ shapeCasts_S61440x512_S30x2048x512 (ix3 b l e)
    (ix2 (⟨b.val * 2048 + l.val, by omega⟩ : Fin 61440) e) (by
      rw [Shape.rowMajor_val_two, Shape.rowMajor_val_three]; rfl)).trans ?_
  unfold Cert.KernelIdeal.Final.result Cert.KernelIdeal.Final.G2
  refine congrArg (Cert.Spec.G _ _ _ _ _) (funext fun a => Fin.ext ?_)
  match a with
  | ⟨0, _⟩ => show (b.val * 2048 + l.val) / 2048 = b.val; omega
  | ⟨1, _⟩ => show (b.val * 2048 + l.val) % 2048 = l.val; omega
  | ⟨2, _⟩ => rfl

/-- Every weakly fair execution of the idealized kernel terminates with the result at the specification of the
    arguments and the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.lean ====
/-
  The certificate's five claims.

  Both programs compute, for every row (b, l) of the input, the same function of that row and of the
  four parameter arrays (Proof/Spec.lean): an affine map to 1536 features read as eight heads of a
  query, a key and a value of 64 entries; the eight heads attending to each other inside the row
  (scores = inner products over the 64 entries times 1/8, a softmax over the eight heads, the weighted
  sum of the eight values); a second affine map of the 512 mixed entries.

  The kernel walks the 61440 rows in tiles of 1024, with the projection weight's rows permuted on the
  host so that queries, keys and values are contiguous blocks of columns; its body is a composition of
  whole-tile functions (Proof/Body.lean, Proof/Norm.lean) whose value at a row and a column is the
  specification of that row (Proof/BodyAt.lean); the arrays the region finds are the arguments
  transposed, permuted and reshaped (Proof/HostArrays.lean), the tiles cover the output array
  (Proof/Final.lean) and the host reshapes it back to 30 × 2048 × 512 (Proof/KernelRun.lean).  The
  reference applies the same operations to the whole array at once (Proof/RefIsSpec.lean); its division
  by 8 is the kernel's product with 1/8, and its sums, products and maxima are the kernel's, in another
  grouping.  No step needs the inputs to be finite.  The three frames are the generated ones (the
  reference's is its generated run with the result dropped), and the idealization rewrote nothing.
-/
import proofs.«121395_j16020228014689_2_alg».proof.Defs
import proofs.«121395_j16020228014689_2_alg».proof.Proof.Gen.Kernel
import proofs.«121395_j16020228014689_2_alg».proof.Proof.Gen.Kernel.Frame
import proofs.«121395_j16020228014689_2_alg».proof.Proof.Gen.KernelIdeal
import proofs.«121395_j16020228014689_2_alg».proof.Proof.Gen.KernelIdeal.Frame
import proofs.«121395_j16020228014689_2_alg».proof.Proof.Gen.ReferenceIdeal
import proofs.«121395_j16020228014689_2_alg».proof.Proof.Gen.Pre_finite_inputs
import proofs.«121395_j16020228014689_2_alg».proof.Proof.Gen.ReferenceIdeal.Run
import proofs.«121395_j16020228014689_2_alg».proof.Proof.Gen.ReferenceIdeal.Read
import proofs.«121395_j16020228014689_2_alg».proof.Proof.RefIsSpec
import proofs.«121395_j16020228014689_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at the specification of the argument arrays, which agree. -/
theorem algebraic : Cert.algebraic_KernelIdeal_ReferenceIdeal := by
  intro m ρ m' ρ' _ hagree
  refine ⟨_, Cert.KernelIdeal.Run.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.RefIsSpec.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
